-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x640000 : Shape := ⟨2, ![2, 640000]⟩
abbrev S10000x256 : Shape := ⟨2, ![10000, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S128x64 .f32) (main_arg9 : FVec F S64 .f32) (main_arg10 : FVec F S128x64 .f32) (main_arg11 : FVec F S128x64 .f32) (main_arg12 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_v48 main_v49 main_v50

def fn_part1 {F : FTy → Type} [FloatOps F] (main_arg5 : FVec F S256x128 .f32) (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x10000 .f32) (main_arg1 : IVec S2x640000 32) (main_arg2 : FVec F S10000x256 .f32) (main_arg3 : FVec F S256 .f32) (main_arg4 : FVec F S256x128 .f32) (main_arg5 : FVec F S256x128 .f32) (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_v13 main_v16
-- ==== Kernel.lean ====
abbrev S10000x10000 : Shape := ⟨2, ![10000, 10000]⟩
abbrev S2x640000 : Shape := ⟨2, ![2, 640000]⟩
abbrev S10000x256 : Shape := ⟨2, ![10000, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S1x256 : Shape := ⟨2, ![1, 256]⟩
abbrev S200x10000 : Shape := ⟨2, ![200, 10000]⟩
abbrev S200x256 : Shape := ⟨2, ![200, 256]⟩
abbrev S640000x256 : Shape := ⟨2, ![640000, 256]⟩
abbrev S1x128 : Shape := ⟨2, ![1, 128]⟩
abbrev S10000x128 : Shape := ⟨2, ![10000, 128]⟩
abbrev S1000x256 : Shape := ⟨2, ![1000, 256]⟩
abbrev S1000x128 : Shape := ⟨2, ![1000, 128]⟩
abbrev S640000x128 : Shape := ⟨2, ![640000, 128]⟩
abbrev S1x64 : Shape := ⟨2, ![1, 64]⟩
abbrev S10000x64 : Shape := ⟨2, ![10000, 64]⟩
abbrev S1000x64 : Shape := ⟨2, ![1000, 64]⟩

abbrev nBuf : Space → Nat
  | .hbm => 98
  | .vmem => 33
  | .smem => 0
  | _ => 0

abbrev bufTy : (tb : Table) → Fin (tcTables nBuf tb) → BufTy
  | .hbm, ⟨0, _⟩ => ⟨S10000x10000, .f32⟩
  | .hbm, ⟨1, _⟩ => ⟨S2x640000, .i32⟩
  | .hbm, ⟨2, _⟩ => ⟨S10000x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .i1⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S_, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000, .f32⟩
  | .hbm, ⟨47, _⟩ => ⟨S640000, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000, .f32⟩
  | .hbm, ⟨57, _⟩ => ⟨S640000, .f32⟩
  | .hbm, ⟨58, _⟩ => ⟨S1x256, .f32⟩
  | .hbm, ⟨59, _⟩ => ⟨S10000x256, .f32⟩
  | .hbm, ⟨60, _⟩ => ⟨S640000x1, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x256, .f32⟩
  | .hbm, ⟨70, _⟩ => ⟨S640000x256, .f32⟩
  | .hbm, ⟨71, _⟩ => ⟨S640000x256, .f32⟩
  | .hbm, ⟨72, _⟩ => ⟨S_, .f32⟩
  | .hbm, ⟨73, _⟩ => ⟨S10000x256, .f32⟩
  | .hbm, ⟨74, _⟩ => ⟨S640000x1, .i32⟩
  | .hbm, ⟨75, _⟩ => ⟨S10000x256, .f32⟩
  | .hbm, ⟨76, _⟩ => ⟨S1x128, .f32⟩
  | .hbm, ⟨77, _⟩ => ⟨S10000x128, .f32⟩
  | .hbm, ⟨78, _⟩ => ⟨S640000x1, .f32⟩
  | .hbm, ⟨79, _⟩ => ⟨S_, .i32⟩
  | .hbm, ⟨80, _⟩ => ⟨S640000, .i32⟩
  | .hbm, ⟨81, _⟩ => ⟨S640000, .i1⟩
  | .hbm, ⟨82, _⟩ => ⟨S_, .i32⟩
  | .hbm, ⟨83, _⟩ => ⟨S640000, .i32⟩
  | .hbm, ⟨84, _⟩ => ⟨S640000, .i32⟩
  | .hbm, ⟨85, _⟩ => ⟨S640000, .i32⟩
  | .hbm, ⟨86, _⟩ => ⟨S640000x1, .i32⟩
  | .hbm, ⟨87, _⟩ => ⟨S640000x128, .f32⟩
  | .hbm, ⟨88, _⟩ => ⟨S640000x128, .f32⟩
  | .hbm, ⟨89, _⟩ => ⟨S640000x128, .f32⟩
  | .hbm, ⟨90, _⟩ => ⟨S_, .f32⟩
  | .hbm, ⟨91, _⟩ => ⟨S10000x128, .f32⟩
  | .hbm, ⟨92, _⟩ => ⟨S640000x1, .i32⟩
  | .hbm, ⟨93, _⟩ => ⟨S10000x128, .f32⟩
  | .hbm, ⟨94, _⟩ => ⟨S1x64, .f32⟩
  | .hbm, ⟨95, _⟩ => ⟨S10000x64, .f32⟩
  | .hbm, ⟨96, _⟩ => ⟨S1x64, .f32⟩
  | .hbm, ⟨97, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S1x256, .f32⟩
  | .local _ .vmem, ⟨4, _⟩ => ⟨S200x256, .f32⟩
  | .local _ .vmem, ⟨5, _⟩ => ⟨S200x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S128x64, .f32⟩
  | .local _ .vmem, ⟨20, _⟩ => ⟨S128x64, .f32⟩
  | .local _ .vmem, ⟨21, _⟩ => ⟨S1x64, .f32⟩
  | .local _ .vmem, ⟨22, _⟩ => ⟨S1000x64, .f32⟩
  | .local _ .vmem, ⟨23, _⟩ => ⟨S1000x64, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S1000x64, .f32⟩
  | .local _ .vmem, ⟨32, _⟩ => ⟨S1000x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  bcast_S640000x1_S640000x256_0_1 : S640000x1.BroadcastsInDim S640000x256 (![0, 1] : Fin 2 → Fin S640000x256.rank)
  bcast_S_S10000x256 : S_.BroadcastsInDim S10000x256 (![] : Fin 0 → Fin S10000x256.rank)
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  shapeCasts_S64_S1x64 : S64.ShapeCasts S1x64
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S200x10000_S10000x256_S200x256_1_0_0_1_n_n_wf : DotDims.WF S200x10000 S10000x256 S200x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S1000x256_S256x128_S1000x128_1_0_0_1_n_n_wf : DotDims.WF S1000x256 S256x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S10000x64.size a
  hwx2_5 : ∀ i : grid2.Coords, EltTy.bits .f32 = 32 ∨ (Rect.block (s := S10000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S10000x128.size a
  hwx3_1 : ∀ i : grid3.Coords, EltTy.bits .f32 = 32 ∨ (Rect.block (s := S10000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x64.size a ≤ S10000x64.size a
  hwx3_5 : ∀ i : grid3.Coords, EltTy.bits .f32 = 32 ∨ (Rect.block (s := S10000x64) S1000x64.size (cc3_transform_5 i) (hinb3_5 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S2x640000 : Shape := ⟨2, ![2, 640000]⟩
abbrev S10000x256 : Shape := ⟨2, ![10000, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S1x256 : Shape := ⟨2, ![1, 256]⟩
abbrev S640000x256 : Shape := ⟨2, ![640000, 256]⟩
abbrev S10000x128 : Shape := ⟨2, ![10000, 128]⟩
abbrev S1x128 : Shape := ⟨2, ![1, 128]⟩
abbrev S640000x128 : Shape := ⟨2, ![640000, 128]⟩
abbrev S10000x64 : Shape := ⟨2, ![10000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S10000x10000, .f32⟩
  | 1 => ⟨S2x640000, .i32⟩
  | 2 => ⟨S10000x256, .f32⟩
  | 3 => ⟨S256, .f32⟩
  | 4 => ⟨S256x128, .f32⟩
  | 5 => ⟨S256x128, .f32⟩
  | 6 => ⟨S128, .f32⟩
  | 7 => ⟨S128x64, .f32⟩
  | 8 => ⟨S128x64, .f32⟩
  | 9 => ⟨S64, .f32⟩
  | 10 => ⟨S128x64, .f32⟩
  | 11 => ⟨S128x64, .f32⟩
  | 12 => ⟨S64, .f32⟩
  | 13 => ⟨S1x640000, .i32⟩
  | 14 => ⟨S640000, .i32⟩
  | 15 => ⟨S1x640000, .i32⟩
  | 16 => ⟨S640000, .i32⟩
  | 17 => ⟨S1x640000, .i32⟩
  | 18 => ⟨S640000, .i32⟩
  | 19 => ⟨S1x640000, .i32⟩
  | 20 => ⟨S640000, .i32⟩
  | 21 => ⟨S_, .f32⟩
  | 22 => ⟨S640000, .f32⟩
  | 23 => ⟨S_, .f32⟩
  | 24 => ⟨S10000, .f32⟩
  | 25 => ⟨S640000x1, .i32⟩
  | 26 => ⟨S10000, .f32⟩
  | 27 => ⟨S_, .f32⟩
  | 28 => ⟨S10000, .f32⟩
  | 29 => ⟨S10000, .i1⟩
  | 30 => ⟨S_, .f32⟩
  | 31 => ⟨S10000, .f32⟩
  | 32 => ⟨S10000, .f32⟩
  | 33 => ⟨S10000, .f32⟩
  | 34 => ⟨S_, .f32⟩
  | 35 => ⟨S_, .f32⟩
  | 36 => ⟨S10000, .f32⟩
  | 37 => ⟨S10000, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000, .f32⟩
  | 47 => ⟨S640000, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S640000, .f32⟩
  | 57 => ⟨S640000, .f32⟩
  | 58 => ⟨S10000x256, .f32⟩
  | 59 => ⟨S1x256, .f32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S640000x1, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x256, .f32⟩
  | 75 => ⟨S640000x256, .f32⟩
  | 76 => ⟨S640000x256, .f32⟩
  | 77 => ⟨S_, .f32⟩
  | 78 => ⟨S10000x256, .f32⟩
  | 79 => ⟨S640000x1, .i32⟩
  | 80 => ⟨S10000x256, .f32⟩
  | 81 => ⟨S10000x128, .f32⟩
  | 82 => ⟨S10000x128, .f32⟩
  | 83 => ⟨S10000x128, .f32⟩
  | 84 => ⟨S1x128, .f32⟩
  | 85 => ⟨S10000x128, .f32⟩
  | 86 => ⟨S10000x128, .f32⟩
  | 87 => ⟨S_, .f32⟩
  | 88 => ⟨S10000x128, .f32⟩
  | 89 => ⟨S10000x128, .f32⟩
  | 90 => ⟨S640000x1, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x128, .f32⟩
  | 100 => ⟨S640000x128, .f32⟩
  | 101 => ⟨S640000x128, .f32⟩
  | 102 => ⟨S_, .f32⟩
  | 103 => ⟨S10000x128, .f32⟩
  | 104 => ⟨S640000x1, .i32⟩
  | 105 => ⟨S10000x128, .f32⟩
  | 106 => ⟨S10000x64, .f32⟩
  | 107 => ⟨S10000x64, .f32⟩
  | 108 => ⟨S10000x64, .f32⟩
  | 109 => ⟨S1x64, .f32⟩
  | 110 => ⟨S10000x64, .f32⟩
  | 111 => ⟨S10000x64, .f32⟩
  | 112 => ⟨S640000x1, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S640000x128, .f32⟩
  | 123 => ⟨S640000x128, .f32⟩
  | 124 => ⟨S_, .f32⟩
  | 125 => ⟨S10000x128, .f32⟩
  | 126 => ⟨S640000x1, .i32⟩
  | 127 => ⟨S10000x128, .f32⟩
  | _ => ⟨S10000x10000, .f32⟩

abbrev hbmTy0_1 (i : Nat) : BufTy := match i % 128 with
  | 0 => ⟨S10000x64, .f32⟩
  | 1 => ⟨S10000x64, .f32⟩
  | 2 => ⟨S10000x64, .f32⟩
  | 3 => ⟨S1x64, .f32⟩
  | 4 => ⟨S10000x64, .f32⟩
  | 5 => ⟨S10000x64, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_cst : Ref sig .tc := ⟨.hbm, 62, rfl⟩
abbrev main_call1_v0 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_c_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S640000x1_S640000x256_0_1 : S640000x1.BroadcastsInDim S640000x256 (![0, 1] : Fin 2 → Fin S640000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S640000x1_S640000x128_0_1 : S640000x1.BroadcastsInDim S640000x128 (![0, 1] : Fin 2 → Fin S640000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S10000x10000_S10000x256_S10000x256_1_0_0_1_n_n_wf : DotDims.WF S10000x10000 S10000x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x128_S10000x128_1_0_0_1_n_n_wf : DotDims.WF S10000x256 S256x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x64_S10000x64_1_0_0_1_n_n_wf : DotDims.WF S10000x128 S128x64 S10000x64 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LastBoundary.lean ====
/-
  The kernel program's run, read at its last boundary.  The program is four pipelined regions among stretches of host
  operations.  Its run is the chain of those ten segments, each entered from the buffer contents the previous one
  leaves: a host stretch applies its operations in order, a region leaves each of its arrays at what its write-backs
  make of it and every other buffer alone.  The contents at the boundaries are the generated fold `Gen.W0` … `Gen.W10`.

  Here: from any launch memory every weakly fair execution terminates, nothing faulting, and ends with EVERY unscoped
  buffer of every core at the last boundary's contents `Gen.W10` (`run_to_last`, for any post that follows from that
  reading).  Read at the two result arrays this names what the program returns; read at an argument it gives the
  launch contents back (`run_results`).  What `Gen.W10` holds at the results as a function of the arguments is the
  subject of the other modules.
-/
import proofs.«101775_j49589692399793_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost element the launch starts from: every pipeline's staging cells and duty tokens, nothing else. -/
abbrev launchElt : UR sig nD τ := initOf (Pipeline.cells cfgs cellOf_inj) (Pipeline.launchToks cfgs cellOf_inj)

/-- What a core holds between two segments besides the boundary: every unscoped buffer at the contents `W`, its
    generator register at some state, and nothing owed to another core. -/
abbrev between (W : Dev nD → Valuation τ sig (Elt F)) (c : Dev nD) : sProp 𝕄 :=
  iprop(StableHlo.held (c : Thread nD τ) (Pipeline.ucRefs τ sig) (W c) ∗ R c)

-- the launch theorem's implicit arguments are found by unifying its conclusion with this statement, which takes
-- unfolding plain definitions in a metavariable's type
set_option backward.isDefEq.respectTransparency.types false in
/-- THE RUN, for any post `Q` that holds of every memory whose unscoped buffers are at the last boundary's contents:
    @main is the run of its ten segments (`Gen.main_run`), no pipeline entered twice, no core owing anything at
    launch; consecutive segments' states agree by construction. -/
theorem run_to_last {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt)
    (hu₀ := by
      -- the launch element is the pipelines' own, and no core needs a ghost resource of its own beside it
      iintro Hu
      imodintro
      isplitl [Hu]
      · iapply (show (ownU (launchElt) : sProp 𝕄) ⊢ BI.own (emb₁ (launchElt)) from .rfl)
        iexact Hu
      · iapply (show (BI.emp : sProp 𝕄) ⊢ bigSep Finset.univ (fun _ : Dev nD => (BI.emp : sProp 𝕄)) from by
          rw [BI.bigSep_emp_const])
        iempintro)
    (T₀ := between (F := F) (W0 m ρ)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      -- what the launch deals a core — its unscoped buffers at the launch memory, its generator register, nothing
      -- owed — is the first segment's entry state (the unscoped buffers at `Gen.W0`)
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W10 m ρ c b)
    (hfin := fun c s' => by
      -- the last segment's exit state read against a final machine state: every unscoped buffer of the core holds
      -- the last boundary's contents
      iintro ⟨⟨Hbufs, -⟩, HSI⟩
      unfold StableHlo.held
      imodintro
      iapply (pointsTo_read_all (Pipeline.ucRefs τ sig) (fun b => (((c : Thread nD τ)).1, b)) (W10 m ρ c) s')
      isplitl [Hbufs] <;> iassumption)
    (hQ := hQ)

/-- The two results named, the arguments as launched: the last boundary read at the result arrays, and at each argument
    walked back through the fold to the launch memory (no host operation and no region writes an argument). -/
theorem run_results : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_v67) = W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_to_last m ρ fun s h c =>
    ⟨h c _ (mem_uc main_v65 (by decide)),
     h c _ (mem_uc main_v67 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c)⟩

end Cert.KernelIdeal.Results

end
-- ==== Proof.RefRun.lean ====
/-
  The reference program's run, read back.  The reference is a straight line of 121 host operations (the three functions
  it calls — the select of the inverse square-root degrees and the two rectifiers — stand in their calls' places,
  three operations each, over the calls' own buffers): `ops` lists them in program order, `main_eq` says @main is
  that line, and the run theorem of a straight line gives: every weakly fair execution terminates, nothing faulting,
  with EVERY buffer at the fold of the operations' results over the launch contents (`run`).  What that fold holds at
  the two results, as a function of the arguments, is read off it operation by operation in the bridge module.
-/
import proofs.«101775_j49589692399793_1_alg».proof.ReferenceIdeal
import proofs.«101775_j49589692399793_1_alg».proof.Proof.Gen.ReferenceIdeal
import Idealize.ShloMosaic.Lib.StableHlo.Run

noncomputable section

namespace Cert.ReferenceIdeal.HandRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main's 121 operations, in order; a called function's three operations stand in its call's place. -/
abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    unary main_arg1 main_v4 ((extractStridedSlice S1x640000 ![0, 0] · slices_S2x640000_S1x640000_0_0) : (⟨S2x640000, .i32⟩ : BufTy).Contents (Elt F) → (⟨S1x640000, .i32⟩ : BufTy).Contents (Elt F)),
    reshape main_v4 main_v5 rfl shapeCasts_S1x640000_S640000,
    unary main_arg1 main_v6 ((extractStridedSlice S1x640000 ![1, 0] · slices_S2x640000_S1x640000_1_0) : (⟨S2x640000, .i32⟩ : BufTy).Contents (Elt F) → (⟨S1x640000, .i32⟩ : BufTy).Contents (Elt F)),
    reshape main_v6 main_v7 rfl shapeCasts_S1x640000_S640000,
    nullary main_cst (constant S_ .f32 0x3F800000#32),
    unary main_cst main_v8 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v5 main_v10 (broadcastInDim S640000x1 ![0] bcast_S640000_S640000x1_0 : (⟨S640000, .i32⟩ : BufTy).Contents (Elt F) → (⟨S640000x1, .i32⟩ : BufTy).Contents (Elt F)),
    ternary main_v9 main_v10 main_v8 main_v11 ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    nullary main_cst_2 (constant S_ .f32 0x3F800000#32),
    unary main_cst_2 main_v14 (broadcastInDim S10000 ![] bcast_S_S10000 : (⟨S_, .f32⟩ : BufTy).Contents (Elt F) → (⟨S10000, .f32⟩ : BufTy).Contents (Elt F)),
    binary main_v11 main_v14 main_v15 (maximumf : (⟨S10000, .f32⟩ : BufTy).Contents (Elt F) → (⟨S10000, .f32⟩ : BufTy).Contents (Elt F) → (⟨S10000, .f32⟩ : BufTy).Contents (Elt F)),
    unary main_v15 main_v16 (Host.rsqrt : (⟨S10000, .f32⟩ : BufTy).Contents (Elt F) → (⟨S10000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v16) (TRef.of (T := ⟨S10000, .f32⟩) main_call0_v1) (TRef.of (T := ⟨S10000, .f32⟩) main_v17) select,
    nullary main_c (constantI S_ 32 0#32),
    unary main_c main_v18 (broadcastInDim S640000 ![] bcast_S_S640000 : (⟨S_, .i32⟩ : BufTy).Contents (Elt F) → (⟨S640000, .i32⟩ : BufTy).Contents (Elt F)),
    binary main_v5 main_v18 main_v19 (cmpi .slt : (⟨S640000, .i32⟩ : BufTy).Contents (Elt F) → (⟨S640000, .i32⟩ : BufTy).Contents (Elt F) → (⟨S640000, .i1⟩ : BufTy).Contents (Elt F)),
    nullary main_c_4 (constantI S_ 32 10000#32),
    unary main_c_4 main_v20 (broadcastInDim S640000 ![] bcast_S_S640000 : (⟨S_, .i32⟩ : BufTy).Contents (Elt F) → (⟨S640000, .i32⟩ : BufTy).Contents (Elt F)),
    binary main_v5 main_v20 main_v21 (addi : (⟨S640000, .i32⟩ : BufTy).Contents (Elt F) → (⟨S640000, .i32⟩ : BufTy).Contents (Elt F) → (⟨S640000, .i32⟩ : BufTy).Contents (Elt F)),
    ternary main_v19 main_v21 main_v5 main_v22 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v22 main_v23 (broadcastInDim S640000x1 ![0] bcast_S640000_S640000x1_0 : (⟨S640000, .i32⟩ : BufTy).Contents (Elt F) → (⟨S640000x1, .i32⟩ : BufTy).Contents (Elt F)),
    binary main_v17 main_v23 main_v24 ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)),
    unary main_v24 main_v25 (Host.negf : (⟨S640000, .f32⟩ : BufTy).Contents (Elt F) → (⟨S640000, .f32⟩ : BufTy).Contents (Elt F)),
    nullary main_c_5 (constantI S_ 32 0#32),
    unary main_c_5 main_v26 (broadcastInDim S640000 ![] bcast_S_S640000 : (⟨S_, .i32⟩ : BufTy).Contents (Elt F) → (⟨S640000, .i32⟩ : BufTy).Contents (Elt F)),
    binary main_v7 main_v26 main_v27 (cmpi .slt : (⟨S640000, .i32⟩ : BufTy).Contents (Elt F) → (⟨S640000, .i32⟩ : BufTy).Contents (Elt F) → (⟨S640000, .i1⟩ : BufTy).Contents (Elt F)),
    nullary main_c_6 (constantI S_ 32 10000#32),
    unary main_c_6 main_v28 (broadcastInDim S640000 ![] bcast_S_S640000 : (⟨S_, .i32⟩ : BufTy).Contents (Elt F) → (⟨S640000, .i32⟩ : BufTy).Contents (Elt F)),
    binary main_v7 main_v28 main_v29 (addi : (⟨S640000, .i32⟩ : BufTy).Contents (Elt F) → (⟨S640000, .i32⟩ : BufTy).Contents (Elt F) → (⟨S640000, .i32⟩ : BufTy).Contents (Elt F)),
    ternary main_v27 main_v29 main_v7 main_v30 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v30 main_v31 (broadcastInDim S640000x1 ![0] bcast_S640000_S640000x1_0 : (⟨S640000, .i32⟩ : BufTy).Contents (Elt F) → (⟨S640000x1, .i32⟩ : BufTy).Contents (Elt F)),
    binary main_v17 main_v31 main_v32 ((fun x i => Host.gather gather_S10000_S640000x1_S640000_n_0_n_n_0_1_1 x i) : (⟨S10000, .f32⟩ : BufTy).Contents (Elt F) → (⟨S640000x1, .i32⟩ : BufTy).Contents (Elt F) → (⟨S640000, .f32⟩ : BufTy).Contents (Elt F)),
    binary main_v25 main_v32 main_v33 (mulf : (⟨S640000, .f32⟩ : BufTy).Contents (Elt F) → (⟨S640000, .f32⟩ : BufTy).Contents (Elt F) → (⟨S640000, .f32⟩ : BufTy).Contents (Elt F)),
    binary main_arg0 main_arg2 main_v34 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg3 main_v35 (broadcastInDim S1x256 ![1] bcast_S256_S1x256_1 : (⟨S256, .f32⟩ : BufTy).Contents (Elt F) → (⟨S1x256, .f32⟩ : BufTy).Contents (Elt F)),
    unary main_v35 main_v36 (broadcastInDim S10000x256 ![0, 1] bcast_S1x256_S10000x256_0_1 : (⟨S1x256, .f32⟩ : BufTy).Contents (Elt F) → (⟨S10000x256, .f32⟩ : BufTy).Contents (Elt F)),
    binary main_v34 main_v36 main_v37 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x256, .f32⟩) main_call1_v0) (broadcastInDim S10000x256 ![] bcast_S_S10000x256),
    TRef.binary (TRef.of (T := ⟨S10000x256, .f32⟩) main_v37) (TRef.of (T := ⟨S10000x256, .f32⟩) main_call1_v0) (TRef.of (T := ⟨S10000x256, .f32⟩) main_v38) maximumf,
    unary main_v33 main_v39 (broadcastInDim S640000x1 ![0] bcast_S640000_S640000x1_0 : (⟨S640000, .f32⟩ : BufTy).Contents (Elt F) → (⟨S640000x1, .f32⟩ : BufTy).Contents (Elt F)),
    nullary main_c_7 (constantI S_ 32 0#32),
    unary main_c_7 main_v40 (broadcastInDim S640000 ![] bcast_S_S640000 : (⟨S_, .i32⟩ : BufTy).Contents (Elt F) → (⟨S640000, .i32⟩ : BufTy).Contents (Elt F)),
    binary main_v1 main_v40 main_v41 (cmpi .slt : (⟨S640000, .i32⟩ : BufTy).Contents (Elt F) → (⟨S640000, .i32⟩ : BufTy).Contents (Elt F) → (⟨S640000, .i1⟩ : BufTy).Contents (Elt F)),
    nullary main_c_8 (constantI S_ 32 10000#32),
    unary main_c_8 main_v42 (broadcastInDim S640000 ![] bcast_S_S640000 : (⟨S_, .i32⟩ : BufTy).Contents (Elt F) → (⟨S640000, .i32⟩ : BufTy).Contents (Elt F)),
    binary main_v1 main_v42 main_v43 (addi : (⟨S640000, .i32⟩ : BufTy).Contents (Elt F) → (⟨S640000, .i32⟩ : BufTy).Contents (Elt F) → (⟨S640000, .i32⟩ : BufTy).Contents (Elt F)),
    ternary main_v41 main_v43 main_v1 main_v44 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v44 main_v45 (broadcastInDim S640000x1 ![0] bcast_S640000_S640000x1_0 : (⟨S640000, .i32⟩ : BufTy).Contents (Elt F) → (⟨S640000x1, .i32⟩ : BufTy).Contents (Elt F)),
    binary main_v38 main_v45 main_v46 ((fun x i => Host.gather gather_S10000x256_S640000x1_S640000x256_1_0_n_n_0_1_1256 x i) : (⟨S10000x256, .f32⟩ : BufTy).Contents (Elt F) → (⟨S640000x1, .i32⟩ : BufTy).Contents (Elt F) → (⟨S640000x256, .f32⟩ : BufTy).Contents (Elt F)),
    unary main_v39 main_v47 (broadcastInDim S640000x256 ![0, 1] bcast_S640000x1_S640000x256_0_1 : (⟨S640000x1, .f32⟩ : BufTy).Contents (Elt F) → (⟨S640000x256, .f32⟩ : BufTy).Contents (Elt F)),
    binary main_v47 main_v46 main_v48 (mulf : (⟨S640000x256, .f32⟩ : BufTy).Contents (Elt F) → (⟨S640000x256, .f32⟩ : BufTy).Contents (Elt F) → (⟨S640000x256, .f32⟩ : BufTy).Contents (Elt F)),
    nullary main_cst_9 (constant S_ .f32 0x00000000#32),
    unary main_cst_9 main_v49 (broadcastInDim S10000x256 ![] bcast_S_S10000x256 : (⟨S_, .f32⟩ : BufTy).Contents (Elt F) → (⟨S10000x256, .f32⟩ : BufTy).Contents (Elt F)),
    unary main_v3 main_v50 (broadcastInDim S640000x1 ![0] bcast_S640000_S640000x1_0 : (⟨S640000, .i32⟩ : BufTy).Contents (Elt F) → (⟨S640000x1, .i32⟩ : BufTy).Contents (Elt F)),
    ternary main_v49 main_v50 main_v48 main_v51 ((fun x i u => Host.scatterAdd scatter_S10000x256_S640000x1_S640000x256_1_0_0_1 x i u) : (⟨S10000x256, .f32⟩ : BufTy).Contents (Elt F) → (⟨S640000x1, .i32⟩ : BufTy).Contents (Elt F) → (⟨S640000x256, .f32⟩ : BufTy).Contents (Elt F) → (⟨S10000x256, .f32⟩ : BufTy).Contents (Elt F)),
    binary main_v38 main_arg4 main_v52 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    binary main_v51 main_arg5 main_v53 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    binary main_v52 main_v53 main_v54 (addf : (⟨S10000x128, .f32⟩ : BufTy).Contents (Elt F) → (⟨S10000x128, .f32⟩ : BufTy).Contents (Elt F) → (⟨S10000x128, .f32⟩ : BufTy).Contents (Elt F)),
    unary main_arg6 main_v55 (broadcastInDim S1x128 ![1] bcast_S128_S1x128_1 : (⟨S128, .f32⟩ : BufTy).Contents (Elt F) → (⟨S1x128, .f32⟩ : BufTy).Contents (Elt F)),
    unary main_v55 main_v56 (broadcastInDim S10000x128 ![0, 1] bcast_S1x128_S10000x128_0_1 : (⟨S1x128, .f32⟩ : BufTy).Contents (Elt F) → (⟨S10000x128, .f32⟩ : BufTy).Contents (Elt F)),
    binary main_v54 main_v56 main_v57 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v57) (TRef.of (T := ⟨S10000x128, .f32⟩) main_call2_v0) (TRef.of (T := ⟨S10000x128, .f32⟩) main_v58) maximumf,
    unary main_v33 main_v59 (broadcastInDim S640000x1 ![0] bcast_S640000_S640000x1_0 : (⟨S640000, .f32⟩ : BufTy).Contents (Elt F) → (⟨S640000x1, .f32⟩ : BufTy).Contents (Elt F)),
    nullary main_c_10 (constantI S_ 32 0#32),
    unary main_c_10 main_v60 (broadcastInDim S640000 ![] bcast_S_S640000 : (⟨S_, .i32⟩ : BufTy).Contents (Elt F) → (⟨S640000, .i32⟩ : BufTy).Contents (Elt F)),
    binary main_v1 main_v60 main_v61 (cmpi .slt : (⟨S640000, .i32⟩ : BufTy).Contents (Elt F) → (⟨S640000, .i32⟩ : BufTy).Contents (Elt F) → (⟨S640000, .i1⟩ : BufTy).Contents (Elt F)),
    nullary main_c_11 (constantI S_ 32 10000#32),
    unary main_c_11 main_v62 (broadcastInDim S640000 ![] bcast_S_S640000 : (⟨S_, .i32⟩ : BufTy).Contents (Elt F) → (⟨S640000, .i32⟩ : BufTy).Contents (Elt F)),
    binary main_v1 main_v62 main_v63 (addi : (⟨S640000, .i32⟩ : BufTy).Contents (Elt F) → (⟨S640000, .i32⟩ : BufTy).Contents (Elt F) → (⟨S640000, .i32⟩ : BufTy).Contents (Elt F)),
    ternary main_v61 main_v63 main_v1 main_v64 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v64 main_v65 (broadcastInDim S640000x1 ![0] bcast_S640000_S640000x1_0 : (⟨S640000, .i32⟩ : BufTy).Contents (Elt F) → (⟨S640000x1, .i32⟩ : BufTy).Contents (Elt F)),
    binary main_v58 main_v65 main_v66 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_v59 main_v67 (broadcastInDim S640000x128 ![0, 1] bcast_S640000x1_S640000x128_0_1 : (⟨S640000x1, .f32⟩ : BufTy).Contents (Elt F) → (⟨S640000x128, .f32⟩ : BufTy).Contents (Elt F)),
    binary main_v67 main_v66 main_v68 (mulf : (⟨S640000x128, .f32⟩ : BufTy).Contents (Elt F) → (⟨S640000x128, .f32⟩ : BufTy).Contents (Elt F) → (⟨S640000x128, .f32⟩ : BufTy).Contents (Elt F)),
    nullary main_cst_12 (constant S_ .f32 0x00000000#32),
    unary main_cst_12 main_v69 (broadcastInDim S10000x128 ![] bcast_S_S10000x128 : (⟨S_, .f32⟩ : BufTy).Contents (Elt F) → (⟨S10000x128, .f32⟩ : BufTy).Contents (Elt F)),
    unary main_v3 main_v70 (broadcastInDim S640000x1 ![0] bcast_S640000_S640000x1_0 : (⟨S640000, .i32⟩ : BufTy).Contents (Elt F) → (⟨S640000x1, .i32⟩ : BufTy).Contents (Elt F)),
    ternary main_v69 main_v70 main_v68 main_v71 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)),
    binary main_v58 main_arg7 main_v72 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_v71 main_arg8 main_v73 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_v72 main_v73 main_v74 (addf : (⟨S10000x64, .f32⟩ : BufTy).Contents (Elt F) → (⟨S10000x64, .f32⟩ : BufTy).Contents (Elt F) → (⟨S10000x64, .f32⟩ : BufTy).Contents (Elt F)),
    unary main_arg9 main_v75 (broadcastInDim S1x64 ![1] bcast_S64_S1x64_1 : (⟨S64, .f32⟩ : BufTy).Contents (Elt F) → (⟨S1x64, .f32⟩ : BufTy).Contents (Elt F)),
    unary main_v75 main_v76 (broadcastInDim S10000x64 ![0, 1] bcast_S1x64_S10000x64_0_1 : (⟨S1x64, .f32⟩ : BufTy).Contents (Elt F) → (⟨S10000x64, .f32⟩ : BufTy).Contents (Elt F)),
    binary main_v74 main_v76 main_v77 (addf : (⟨S10000x64, .f32⟩ : BufTy).Contents (Elt F) → (⟨S10000x64, .f32⟩ : BufTy).Contents (Elt F) → (⟨S10000x64, .f32⟩ : BufTy).Contents (Elt F)),
    unary main_v33 main_v78 (broadcastInDim S640000x1 ![0] bcast_S640000_S640000x1_0 : (⟨S640000, .f32⟩ : BufTy).Contents (Elt F) → (⟨S640000x1, .f32⟩ : BufTy).Contents (Elt F)),
    nullary main_c_13 (constantI S_ 32 0#32),
    unary main_c_13 main_v79 (broadcastInDim S640000 ![] bcast_S_S640000 : (⟨S_, .i32⟩ : BufTy).Contents (Elt F) → (⟨S640000, .i32⟩ : BufTy).Contents (Elt F)),
    binary main_v1 main_v79 main_v80 (cmpi .slt : (⟨S640000, .i32⟩ : BufTy).Contents (Elt F) → (⟨S640000, .i32⟩ : BufTy).Contents (Elt F) → (⟨S640000, .i1⟩ : BufTy).Contents (Elt F)),
    nullary main_c_14 (constantI S_ 32 10000#32),
    unary main_c_14 main_v81 (broadcastInDim S640000 ![] bcast_S_S640000 : (⟨S_, .i32⟩ : BufTy).Contents (Elt F) → (⟨S640000, .i32⟩ : BufTy).Contents (Elt F)),
    binary main_v1 main_v81 main_v82 (addi : (⟨S640000, .i32⟩ : BufTy).Contents (Elt F) → (⟨S640000, .i32⟩ : BufTy).Contents (Elt F) → (⟨S640000, .i32⟩ : BufTy).Contents (Elt F)),
    ternary main_v80 main_v82 main_v1 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v83 main_v84 (broadcastInDim S640000x1 ![0] bcast_S640000_S640000x1_0 : (⟨S640000, .i32⟩ : BufTy).Contents (Elt F) → (⟨S640000x1, .i32⟩ : BufTy).Contents (Elt F)),
    binary main_v58 main_v84 main_v85 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_v78 main_v86 (broadcastInDim S640000x128 ![0, 1] bcast_S640000x1_S640000x128_0_1 : (⟨S640000x1, .f32⟩ : BufTy).Contents (Elt F) → (⟨S640000x128, .f32⟩ : BufTy).Contents (Elt F)),
    binary main_v86 main_v85 main_v87 (mulf : (⟨S640000x128, .f32⟩ : BufTy).Contents (Elt F) → (⟨S640000x128, .f32⟩ : BufTy).Contents (Elt F) → (⟨S640000x128, .f32⟩ : BufTy).Contents (Elt F)),
    nullary main_cst_15 (constant S_ .f32 0x00000000#32),
    unary main_cst_15 main_v88 (broadcastInDim S10000x128 ![] bcast_S_S10000x128 : (⟨S_, .f32⟩ : BufTy).Contents (Elt F) → (⟨S10000x128, .f32⟩ : BufTy).Contents (Elt F)),
    unary main_v3 main_v89 (broadcastInDim S640000x1 ![0] bcast_S640000_S640000x1_0 : (⟨S640000, .i32⟩ : BufTy).Contents (Elt F) → (⟨S640000x1, .i32⟩ : BufTy).Contents (Elt F)),
    ternary main_v88 main_v89 main_v87 main_v90 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)),
    binary main_v58 main_arg10 main_v91 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_v90 main_arg11 main_v92 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_v91 main_v92 main_v93 (addf : (⟨S10000x64, .f32⟩ : BufTy).Contents (Elt F) → (⟨S10000x64, .f32⟩ : BufTy).Contents (Elt F) → (⟨S10000x64, .f32⟩ : BufTy).Contents (Elt F)),
    unary main_arg12 main_v94 (broadcastInDim S1x64 ![1] bcast_S64_S1x64_1 : (⟨S64, .f32⟩ : BufTy).Contents (Elt F) → (⟨S1x64, .f32⟩ : BufTy).Contents (Elt F)),
    unary main_v94 main_v95 (broadcastInDim S10000x64 ![0, 1] bcast_S1x64_S10000x64_0_1 : (⟨S1x64, .f32⟩ : BufTy).Contents (Elt F) → (⟨S10000x64, .f32⟩ : BufTy).Contents (Elt F)),
    binary main_v93 main_v95 main_v96 (addf : (⟨S10000x64, .f32⟩ : BufTy).Contents (Elt F) → (⟨S10000x64, .f32⟩ : BufTy).Contents (Elt F) → (⟨S10000x64, .f32⟩ : BufTy).Contents (Elt F)) ]

/-- @main is that line of operations. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation reads and writes TensorCore buffers only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub ..⟩

/-- The contents of core `c`'s buffers when the program returns: the fold of the operations over the launch contents. -/
def final (m : (ℓ : Loc nD τ sig) → Buf (Elt F) ℓ) (c : Dev nD) : Valuation τ sig (Elt F) :=
  after ops (launchContents m c)

set_option maxRecDepth 8192 in
/-- From any memory with zero counters every weakly fair execution of @main terminates, nothing faulting, with every
    buffer of every core at the fold's contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final m c (Proc.devRef .tc b) :=
  run_seq scopedRefs_eq scopedSems_eq defs main (fun _ => ops) main_eq (fun _ => ops_sub) m ρ

end Cert.ReferenceIdeal.HandRun

end
-- ==== Proof.RefArgs.lean ====
/-
  The reference program writes no argument: each of its 121 operations writes its one result buffer, and none of those
  is an argument's.  So the fold of the operations over the launch contents, read at an argument, is the launch
  contents of that argument.
-/
import proofs.«101775_j49589692399793_1_alg».proof.Proof.RefRun

set_option maxRecDepth 16384

noncomputable section

namespace Cert.ReferenceIdeal.HandRun

open Cert.ReferenceIdeal Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem final_arg0 : final m c (Proc.devRef .tc main_arg0) = m ((c.tc : Thread nD τ).loc main_arg0) := by
  unfold final
  after_results_simp <;> rfl

theorem final_arg1 : final m c (Proc.devRef .tc main_arg1) = m ((c.tc : Thread nD τ).loc main_arg1) := by
  unfold final
  after_results_simp <;> rfl

theorem final_arg2 : final m c (Proc.devRef .tc main_arg2) = m ((c.tc : Thread nD τ).loc main_arg2) := by
  unfold final
  after_results_simp <;> rfl

theorem final_arg3 : final m c (Proc.devRef .tc main_arg3) = m ((c.tc : Thread nD τ).loc main_arg3) := by
  unfold final
  after_results_simp <;> rfl

theorem final_arg4 : final m c (Proc.devRef .tc main_arg4) = m ((c.tc : Thread nD τ).loc main_arg4) := by
  unfold final
  after_results_simp <;> rfl

theorem final_arg5 : final m c (Proc.devRef .tc main_arg5) = m ((c.tc : Thread nD τ).loc main_arg5) := by
  unfold final
  after_results_simp <;> rfl

theorem final_arg6 : final m c (Proc.devRef .tc main_arg6) = m ((c.tc : Thread nD τ).loc main_arg6) := by
  unfold final
  after_results_simp <;> rfl

theorem final_arg7 : final m c (Proc.devRef .tc main_arg7) = m ((c.tc : Thread nD τ).loc main_arg7) := by
  unfold final
  after_results_simp <;> rfl

theorem final_arg8 : final m c (Proc.devRef .tc main_arg8) = m ((c.tc : Thread nD τ).loc main_arg8) := by
  unfold final
  after_results_simp <;> rfl

theorem final_arg9 : final m c (Proc.devRef .tc main_arg9) = m ((c.tc : Thread nD τ).loc main_arg9) := by
  unfold final
  after_results_simp <;> rfl

theorem final_arg10 : final m c (Proc.devRef .tc main_arg10) = m ((c.tc : Thread nD τ).loc main_arg10) := by
  unfold final
  after_results_simp <;> rfl

theorem final_arg11 : final m c (Proc.devRef .tc main_arg11) = m ((c.tc : Thread nD τ).loc main_arg11) := by
  unfold final
  after_results_simp <;> rfl

theorem final_arg12 : final m c (Proc.devRef .tc main_arg12) = m ((c.tc : Thread nD τ).loc main_arg12) := by
  unfold final
  after_results_simp <;> rfl

end Cert.ReferenceIdeal.HandRun

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«101775_j49589692399793_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«101775_j49589692399793_1_alg».proof.Proof.LibPlainMatmul
import proofs.«101775_j49589692399793_1_alg».proof.Proof.LibPlainDot
import proofs.«101775_j49589692399793_1_alg».proof.Proof.LibHostRows
import proofs.«101775_j49589692399793_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.Region0.lean ====
/-
  The first region, for any buffer contents `V` at its entry: a grid of 50 points, point t taking rows 200·t … 200·t+199
  of the [10000, 10000] input (all of its columns), the whole weight matrix and the bias row, and writing rows
  200·t … 200·t+199 of the [10000, 256] output.  The body multiplies the tile by the weights (both narrowed to bf16, the
  identity on the extended reals, into the zero accumulator), adds the bias row to every row and rectifies; so entry
  (p, q) of point t's tile is  max (Σₖ x (200·t + p, k) · W (k, q) + b (0, q), 0),  which is entry (200·t + p, q) of
  the whole-matrix layer `projLayer x W b`.  The 50 tiles cover the output's rows, so after the region the output
  array IS `projLayer` of the three arrays as the region found them (`first_layer`).
-/
import proofs.«101775_j49589692399793_1_alg».proof.Proof.Gen.KernelIdeal.Frame
import proofs.«101775_j49589692399793_1_alg».proof.Proof.LibDenseLayers
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.SageLayers

variable (V : (c : Dev nD) → (b : Ref sig .tc) → Buf (Elt Ideal) ((c : Thread nD τ).loc b))

/-- The origin of a rank-2 rectangle. -/
theorem origin2 : (![0, 0] : Fin 2 → Nat) = fun _ => 0 := funext fun a => by fin_cases a <;> rfl

/-- Entry (p, q) of what the body stores, from the three blocks it loads. -/
theorem tile0_at (x0 : Vec Ideal S200x10000 .f32) (x1 : Vec Ideal S10000x256 .f32) (x2 : Vec Ideal S1x256 .f32)
    (p : Fin 200) (q : Fin 256) :
    k0_pay1 x0 x1 x2 (ix2 p q) = max (affineAt (R := 200) (K := 10000) (N := 256) x0 x1 x2 p q) zeroF := by
  unfold k0_pay1
  exact congrArg (max · zeroF) (kernel_affine_at (R := 200) (K := 10000) (N := 256) x0 x1 x2 bitsLt_bf16_f32
    bitsLt_bf16_f32 shapeCasts_S1x256_S1x256 broadcasts_S1x256_S200x256 p q)

/-- The printed index maps over the grid: the input's and the output's row-block index is the point, every other block
    index is 0. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is its tile of the whole-matrix layer of the arrays as the region finds them. -/
theorem writeback0 (c : Dev nD) (t : Fin cfg0.N) :
    (dat0 V c).flushed 3 t = ((cfg0.win 3).blk t).view.read (Elt Ideal)
      (projLayer (R := 10000) (K := 10000) (N := 256) (V c main_arg0) (V c main_arg2) (V c main_v34)) := by
  show (cfg0.win 3).cut (grid0.coords t) ((dat0 V c).after 3 t) = _
  rw [after0_3]
  unfold out0_3
  rw [View.canon_unit_zero origin2]
  simp only [View.ld_unit_zero (S := S200x10000) origin2, View.ld_unit_zero (S := S10000x256) origin2,
    View.ld_unit_zero (S := S1x256) origin2]
  obtain ⟨e00, e01, e10, e11, e20, e21, e30, e31⟩ := blocks0 t
  funext j
  obtain ⟨p, q, rfl⟩ : ∃ (p : Fin 200) (q : Fin 256), j = ix2 p q := ⟨j 0, j 1, eq_ix2 j⟩
  show k0_pay1 (iblk0 V c 0 t) (iblk0 V c 1 t) (iblk0 V c 2 t) (ix2 p q)
    = projLayer (R := 10000) (K := 10000) (N := 256) (V c main_arg0) (V c main_arg2) (V c main_v34)
        (((cfg0.win 3).blk t).view.emb (ix2 p q))
  refine (tile0_at _ _ _ p q).trans ?_
  unfold projLayer affineAt
  refine congrArg (max · zeroF) (congrArg₂ (· + ·) (Finset.sum_congr rfl fun k _ => congrArg₂ (· * ·) ?_ ?_) ?_)
  · show V c main_arg0 (((cfg0.win 0).blk t).view.emb (ix2 p k)) = V c main_arg0 _
    refine congrArg _ (funext fun a => Fin.ext ?_)
    match a with
    | ⟨0, _⟩ =>
      show win0_0.index t (0 : Fin 2) * 200 + 1 * p.val = win0_3.index t (0 : Fin 2) * 200 + 1 * p.val
      omega
    | ⟨1, _⟩ =>
      show win0_0.index t (1 : Fin 2) * 10000 + 1 * k.val = k.val
      omega
  · show V c main_arg2 (((cfg0.win 1).blk t).view.emb (ix2 k q)) = V c main_arg2 _
    refine congrArg _ (funext fun a => Fin.ext ?_)
    match a with
    | ⟨0, _⟩ =>
      show win0_1.index t (0 : Fin 2) * 10000 + 1 * k.val = k.val
      omega
    | ⟨1, _⟩ =>
      show win0_1.index t (1 : Fin 2) * 256 + 1 * q.val = win0_3.index t (1 : Fin 2) * 256 + 1 * q.val
      omega
  · show V c main_v34 (((cfg0.win 2).blk t).view.emb (ix2 (0 : Fin 1) q)) = V c main_v34 _
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 256 + 1 * q.val = win0_3.index t (1 : Fin 2) * 256 + 1 * q.val
      omega

/-- An entry of the output array lies in point `t`'s tile iff each coordinate lies in the tile's range on its axis. -/
theorem mem_tile0 (t : Fin cfg0.N) (i : S10000x256.Idx) :
    i ∈ ((cfg0.win 3).blk t).view.set ↔ ∀ a : Fin 2, win0_3.index t a * S200x256.size a ≤ (i a).val
      ∧ (i a).val < win0_3.index t a * S200x256.size a + S200x256.size a := by
  show i ∈ ((View.whole main_v35).slice (win0_3.rect t)).set ↔ _
  rw [View.set_slice_whole, Rect.mem_set_unit]
  exact Iff.rfl

/-- Row r of the output is in the tile of point r / 200. -/
theorem tiles_cover0 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 50 := N_0
  have ht : (i 0).val / 200 < cfg0.N := by rw [hN]; omega
  obtain ⟨-, -, -, -, -, -, e30, e31⟩ := blocks0 ⟨(i 0).val / 200, ht⟩
  refine ⟨⟨(i 0).val / 200, ht⟩, flush0_3 _, ?_⟩
  rw [mem_tile0]
  intro a
  match a with
  | ⟨0, _⟩ =>
    show win0_3.index ⟨(i 0).val / 200, ht⟩ (0 : Fin 2) * 200 ≤ (i 0).val
      ∧ (i 0).val < win0_3.index ⟨(i 0).val / 200, ht⟩ (0 : Fin 2) * 200 + 200
    rw [e30]
    show (i 0).val / 200 * 200 ≤ (i 0).val ∧ (i 0).val < (i 0).val / 200 * 200 + 200
    omega
  | ⟨1, _⟩ =>
    show win0_3.index ⟨(i 0).val / 200, ht⟩ (1 : Fin 2) * 256 ≤ (i 1).val
      ∧ (i 1).val < win0_3.index ⟨(i 0).val / 200, ht⟩ (1 : Fin 2) * 256 + 256
    rw [e31]
    omega

/-- THE FIRST LAYER: after the region its output array is max (x · W + b, 0) of the arrays the region found. -/
theorem first_layer (c : Dev nD) :
    (dat0 V c).arrAt 3 cfg0.N
      = projLayer (R := 10000) (K := 10000) (N := 256) (V c main_arg0) (V c main_arg2) (V c main_v34) :=
  (dat0 V c).arrAt_eq_of_cover 3 _ (fun t _ => writeback0 V c t) tiles_cover0

end Cert.KernelIdeal.Regions

end
-- ==== Proof.LibChebLayers.lean ====
/-
  The two-product layer  (a · W0 + h · W1) + b  of a graph convolution with one neighbourhood step, read at an entry on
  the extended reals, in the two spellings it has here: a pipelined kernel body's (two matrix products of operands
  narrowed to bf16, each into the zero accumulator, added, plus the bias row kept as a [1, N] block and repeated down
  the rows) and a host program's (two dot_generals added, plus the bias vector made a row and repeated by two
  broadcast_in_dims).  On the extended reals a change of float format is the identity and each product is the plain
  sum over the contracted axis, so both spellings read, at (r, g), as
      (Σₖ a (r, k) · W0 (k, g) + Σₖ h (r, k) · W1 (k, g)) + b (0, g),
  in this grouping: no sum is re-associated and nothing is distributed, so no finiteness is needed.

  For any extents R, K, N.  `chebLayer` is the layer as a whole matrix and `chebReluLayer` its rectification;
  `host_cheb_eq` / `host_chebRelu_eq` say the host's spellings are these functions.
-/
import proofs.«101775_j49589692399793_1_alg».proof.Proof.LibDenseLayers

noncomputable section

open scoped BigOperators

namespace Cert.ChebLayers

open Idealize.ShloMosaic Idealize.ShloMosaic.ValueIdx Cert.SageLayers

variable {R K N : ℕ}

/-- Entry (r, g) of (a · W0 + h · W1) + b, the bias a [1, N] row. -/
def chebAt (A H : (⟨2, ![R, K]⟩ : Shape).Idx → EReal) (W0 W1 : (⟨2, ![K, N]⟩ : Shape).Idx → EReal)
    (b : (⟨2, ![1, N]⟩ : Shape).Idx → EReal) (r : Fin R) (g : Fin N) : EReal :=
  (dotAt A W0 r g + dotAt H W1 r g) + b (ix2 (0 : Fin 1) g)

/-- The layer (a · W0 + h · W1) + b as a whole matrix. -/
def chebLayer (A H : (⟨2, ![R, K]⟩ : Shape).Idx → EReal) (W0 W1 : (⟨2, ![K, N]⟩ : Shape).Idx → EReal)
    (b : (⟨2, ![1, N]⟩ : Shape).Idx → EReal) : (⟨2, ![R, N]⟩ : Shape).Idx → EReal :=
  fun i => chebAt A H W0 W1 b (i 0) (i 1)

/-- The rectified layer max ((a · W0 + h · W1) + b, 0) as a whole matrix. -/
def chebReluLayer (A H : (⟨2, ![R, K]⟩ : Shape).Idx → EReal) (W0 W1 : (⟨2, ![K, N]⟩ : Shape).Idx → EReal)
    (b : (⟨2, ![1, N]⟩ : Shape).Idx → EReal) : (⟨2, ![R, N]⟩ : Shape).Idx → EReal :=
  fun i => max (chebAt A H W0 W1 b (i 0) (i 1)) zeroF

/-- The kernel body's spelling of the layer before its rectifier: each row operand passes an identity cast before it
    is narrowed. -/
theorem kernel_cheb_at (A H : FVec Ideal ⟨2, ![R, K]⟩ .f32) (W0 W1 : FVec Ideal ⟨2, ![K, N]⟩ .f32)
    (b : FVec Ideal ⟨2, ![1, N]⟩ .f32) (h1 h2 h3 h4 : FTy.bf16.bits < FTy.f32.bits)
    (hcA hcH : (⟨2, ![R, K]⟩ : Shape).ShapeCasts ⟨2, ![R, K]⟩)
    (hc : (⟨2, ![1, N]⟩ : Shape).ShapeCasts ⟨2, ![1, N]⟩) (hb : (⟨2, ![1, N]⟩ : Shape).Broadcasts ⟨2, ![R, N]⟩)
    (r : Fin R) (g : Fin N) :
    addf (addf
          (matmul (DotDims.plain R K N) none (truncf .bf16 (shapeCast ⟨2, ![R, K]⟩ A hcA) h1) (truncf .bf16 W0 h2)
            (constant ⟨2, ![R, N]⟩ .f32 0x00000000#32))
          (matmul (DotDims.plain R K N) none (truncf .bf16 (shapeCast ⟨2, ![R, K]⟩ H hcH) h3) (truncf .bf16 W1 h4)
            (constant ⟨2, ![R, N]⟩ .f32 0x00000000#32)))
        (broadcastTo ⟨2, ![R, N]⟩ (shapeCast ⟨2, ![1, N]⟩ b hc) hb) (ix2 r g)
      = chebAt A H W0 W1 b r g := by
  rw [addf_apply, addf_apply]
  refine congrArg₂ (· + ·) (congrArg₂ (· + ·) ?_ ?_) ?_
  · rw [shapeCast_self]; exact kernel_dot_at A W0 h1 h2 r g
  · rw [shapeCast_self]; exact kernel_dot_at H W1 h3 h4 r g
  · rw [Cert.LibBlockLayout.rowBroadcast_at, shapeCast_self]

/-- The host's spelling of the layer before its rectifier, the bias given as a vector. -/
theorem host_cheb_at (A H : FVec Ideal ⟨2, ![R, K]⟩ .f32) (W0 W1 : FVec Ideal ⟨2, ![K, N]⟩ .f32)
    (b : FVec Ideal ⟨1, ![N]⟩ .f32)
    (d1 : Fin (⟨1, ![N]⟩ : Shape).rank → Fin (⟨2, ![1, N]⟩ : Shape).rank)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (addf (Host.dotGeneral (DotDims.plain R K N) none A W0) (Host.dotGeneral (DotDims.plain R K N) none H W1))
        (broadcastInDim ⟨2, ![R, N]⟩ d2 hb2 (broadcastInDim ⟨2, ![1, N]⟩ d1 hb1 b)) (ix2 r g)
      = chebAt A H W0 W1 (broadcastInDim ⟨2, ![1, N]⟩ d1 hb1 b) r g := by
  rw [addf_apply, addf_apply]
  refine congrArg₂ (· + ·) (congrArg₂ (· + ·) ?_ ?_) ?_
  · exact host_dot_at A W0 r g
  · exact host_dot_at H W1 r g
  · exact Cert.LibHostRows.bcast_1b_ab_at d2 hd20 hd21 hb2 _ r g

/-- (a · W0 + h · W1) + b in the host's spelling, as a whole matrix. -/
theorem host_cheb_eq (A H : FVec Ideal ⟨2, ![R, K]⟩ .f32) (W0 W1 : FVec Ideal ⟨2, ![K, N]⟩ .f32)
    (b : FVec Ideal ⟨1, ![N]⟩ .f32)
    (d1 : Fin (⟨1, ![N]⟩ : Shape).rank → Fin (⟨2, ![1, N]⟩ : Shape).rank)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (addf (Host.dotGeneral (DotDims.plain R K N) none A W0) (Host.dotGeneral (DotDims.plain R K N) none H W1))
        (broadcastInDim ⟨2, ![R, N]⟩ d2 hb2 (broadcastInDim ⟨2, ![1, N]⟩ d1 hb1 b))
      = chebLayer A H W0 W1 (broadcastInDim ⟨2, ![1, N]⟩ d1 hb1 b) := by
  funext i
  obtain ⟨r, g, rfl⟩ : ∃ (r : Fin R) (g : Fin N), i = ix2 r g := ⟨i 0, i 1, eq_ix2 i⟩
  exact host_cheb_at A H W0 W1 b d1 hb1 d2 hd20 hd21 hb2 r g

/-- max ((a · W0 + h · W1) + b, 0) in the host's spelling, as a whole matrix. -/
theorem host_chebRelu_eq (A H : FVec Ideal ⟨2, ![R, K]⟩ .f32) (W0 W1 : FVec Ideal ⟨2, ![K, N]⟩ .f32)
    (b : FVec Ideal ⟨1, ![N]⟩ .f32)
    (d1 : Fin (⟨1, ![N]⟩ : Shape).rank → Fin (⟨2, ![1, N]⟩ : Shape).rank)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A W0) (Host.dotGeneral (DotDims.plain R K N) none H W1))
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = chebReluLayer A H W0 W1 (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_cheb_at A H W0 W1 b d1 hb1 d2 hd20 hd21 hb2 r g)

end Cert.ChebLayers

end
-- ==== Proof.Region1.lean ====
/-
  The second region, for any buffer contents `V` at its entry: a grid of 10 points, point t taking rows 1000·t … 1000·t+999 of
  the two [10000, 256] inputs (the features a and their neighbourhood sums h), both whole weight matrices and the bias
  row, and writing rows 1000·t … 1000·t+999 of the [10000, 128] output.  The body multiplies each row tile by its
  weights (all narrowed to bf16, the identity on the extended reals, each product into the zero accumulator), adds the
  two products, adds the bias row to every row and rectifies; so entry (p, q) of point t's tile is
  max ((Σₖ a (·, k) · W0 (k, q) + Σₖ h (·, k) · W1 (k, q)) + b (0, q), 0)
  at row 1000·t + p: entry (1000·t + p, q) of the whole-matrix layer `chebReluLayer a h W0 W1 b`.  The 10 tiles cover the
  output's rows, so after the region the output array IS that layer of the five arrays as the region found them
  (`second_layer`).
-/
import proofs.«101775_j49589692399793_1_alg».proof.Proof.Gen.KernelIdeal.Frame
import proofs.«101775_j49589692399793_1_alg».proof.Proof.LibChebLayers
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.SageLayers Cert.ChebLayers

variable (V : (c : Dev nD) → (b : Ref sig .tc) → Buf (Elt Ideal) ((c : Thread nD τ).loc b))

/-- The origin of a rank-2 rectangle. -/
theorem origin2_1 : (![0, 0] : Fin 2 → Nat) = fun _ => 0 := funext fun a => by fin_cases a <;> rfl

/-- Entry (p, q) of what the body stores, from the five blocks it loads. -/
theorem tile1_at (x0 x1 : Vec Ideal S1000x256 .f32) (x2 x3 : Vec Ideal S256x128 .f32) (x4 : Vec Ideal S1x128 .f32)
    (p : Fin 1000) (q : Fin 128) :
    k1_pay1 x0 x1 x2 x3 x4 (ix2 p q) = max (chebAt (R := 1000) (K := 256) (N := 128) x0 x1 x2 x3 x4 p q) zeroF := by
  unfold k1_pay1
  exact congrArg (max · zeroF) (kernel_cheb_at (R := 1000) (K := 256) (N := 128) x0 x1 x2 x3 x4 bitsLt_bf16_f32 bitsLt_bf16_f32
    bitsLt_bf16_f32 bitsLt_bf16_f32 shapeCasts_S1000x256_S1000x256 shapeCasts_S1000x256_S1000x256 shapeCasts_S1x128_S1x128
    broadcasts_S1x128_S1000x128 p q)

/-- The printed index maps over the grid: the two row inputs' and the output's row-block index is the point, every
    other block index is 0. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is its tile of the whole-matrix layer of the arrays as the region finds them. -/
theorem writeback1 (c : Dev nD) (t : Fin cfg1.N) :
    (dat1 V c).flushed 5 t = ((cfg1.win 5).blk t).view.read (Elt Ideal)
      (chebReluLayer (R := 10000) (K := 256) (N := 128) (V c main_v35) (V c main_v48) (V c main_arg4) (V c main_arg5)
        (V c main_v49)) := by
  show (cfg1.win 5).cut (grid1.coords t) ((dat1 V c).after 5 t) = _
  rw [after1_5]
  unfold out1_5
  rw [View.canon_unit_zero origin2_1]
  simp only [View.ld_unit_zero (S := S1000x256) origin2_1, View.ld_unit_zero (S := S256x128) origin2_1,
    View.ld_unit_zero (S := S1x128) origin2_1]
  obtain ⟨e00, e01, e10, e11, e20, e21, e30, e31, e40, e41, e50, e51⟩ := blocks1 t
  funext i
  obtain ⟨p, q, rfl⟩ : ∃ (p : Fin 1000) (q : Fin 128), i = ix2 p q := ⟨i 0, i 1, eq_ix2 i⟩
  show k1_pay1 (iblk1 V c 0 t) (iblk1 V c 1 t) (iblk1 V c 2 t) (iblk1 V c 3 t) (iblk1 V c 4 t) (ix2 p q)
    = chebReluLayer (R := 10000) (K := 256) (N := 128) (V c main_v35) (V c main_v48) (V c main_arg4) (V c main_arg5)
        (V c main_v49)
        (((cfg1.win 5).blk t).view.emb (ix2 p q))
  refine (tile1_at _ _ _ _ _ p q).trans ?_
  unfold chebReluLayer chebAt dotAt
  refine congrArg (max · zeroF) (congrArg₂ (· + ·) (congrArg₂ (· + ·)
    (Finset.sum_congr rfl fun j _ => congrArg₂ (· * ·) ?_ ?_) (Finset.sum_congr rfl fun j _ => congrArg₂ (· * ·) ?_ ?_)) ?_)
  · show V c main_v35 (((cfg1.win 0).blk t).view.emb (ix2 p j)) = V c main_v35 _
    refine congrArg _ (funext fun a => Fin.ext ?_)
    match a with
    | ⟨0, _⟩ =>
      show win1_0.index t (0 : Fin 2) * 1000 + 1 * p.val = win1_5.index t (0 : Fin 2) * 1000 + 1 * p.val
      omega
    | ⟨1, _⟩ =>
      show win1_0.index t (1 : Fin 2) * 256 + 1 * j.val = j.val
      omega
  · show V c main_arg4 (((cfg1.win 2).blk t).view.emb (ix2 j q)) = V c main_arg4 _
    refine congrArg _ (funext fun a => Fin.ext ?_)
    match a with
    | ⟨0, _⟩ =>
      show win1_2.index t (0 : Fin 2) * 256 + 1 * j.val = j.val
      omega
    | ⟨1, _⟩ =>
      show win1_2.index t (1 : Fin 2) * 128 + 1 * q.val = win1_5.index t (1 : Fin 2) * 128 + 1 * q.val
      omega
  · show V c main_v48 (((cfg1.win 1).blk t).view.emb (ix2 p j)) = V c main_v48 _
    refine congrArg _ (funext fun a => Fin.ext ?_)
    match a with
    | ⟨0, _⟩ =>
      show win1_1.index t (0 : Fin 2) * 1000 + 1 * p.val = win1_5.index t (0 : Fin 2) * 1000 + 1 * p.val
      omega
    | ⟨1, _⟩ =>
      show win1_1.index t (1 : Fin 2) * 256 + 1 * j.val = j.val
      omega
  · show V c main_arg5 (((cfg1.win 3).blk t).view.emb (ix2 j q)) = V c main_arg5 _
    refine congrArg _ (funext fun a => Fin.ext ?_)
    match a with
    | ⟨0, _⟩ =>
      show win1_3.index t (0 : Fin 2) * 256 + 1 * j.val = j.val
      omega
    | ⟨1, _⟩ =>
      show win1_3.index t (1 : Fin 2) * 128 + 1 * q.val = win1_5.index t (1 : Fin 2) * 128 + 1 * q.val
      omega
  · show V c main_v49 (((cfg1.win 4).blk t).view.emb (ix2 (0 : Fin 1) q)) = V c main_v49 _
    refine congrArg _ (funext fun a => Fin.ext ?_)
    match a with
    | ⟨0, _⟩ =>
      show win1_4.index t (0 : Fin 2) * 1 + 1 * 0 = 0
      omega
    | ⟨1, _⟩ =>
      show win1_4.index t (1 : Fin 2) * 128 + 1 * q.val = win1_5.index t (1 : Fin 2) * 128 + 1 * q.val
      omega

/-- An entry of the output array lies in point `t`'s tile iff each coordinate lies in the tile's range on its axis. -/
theorem mem_tile1 (t : Fin cfg1.N) (i : S10000x128.Idx) :
    i ∈ ((cfg1.win 5).blk t).view.set ↔ ∀ a : Fin 2, win1_5.index t a * S1000x128.size a ≤ (i a).val
      ∧ (i a).val < win1_5.index t a * S1000x128.size a + S1000x128.size a := by
  show i ∈ ((View.whole main_v50).slice (win1_5.rect t)).set ↔ _
  rw [View.set_slice_whole, Rect.mem_set_unit]
  exact Iff.rfl

/-- Row r of the output is in the tile of point r / 1000. -/
theorem tiles_cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 10 := N_1
  have ht : (i 0).val / 1000 < cfg1.N := by rw [hN]; omega
  obtain ⟨-, -, -, -, -, -, -, -, -, -, e50, e51⟩ := blocks1 ⟨(i 0).val / 1000, ht⟩
  refine ⟨⟨(i 0).val / 1000, ht⟩, flush1_5 _, ?_⟩
  rw [mem_tile1]
  intro a
  match a with
  | ⟨0, _⟩ =>
    show win1_5.index ⟨(i 0).val / 1000, ht⟩ (0 : Fin 2) * 1000 ≤ (i 0).val
      ∧ (i 0).val < win1_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win1_5.index ⟨(i 0).val / 1000, ht⟩ (1 : Fin 2) * 128 ≤ (i 1).val
      ∧ (i 1).val < win1_5.index ⟨(i 0).val / 1000, ht⟩ (1 : Fin 2) * 128 + 128
    rw [e51]
    omega

/-- After the region its output array is the layer of the arrays the region found. -/
theorem second_layer (c : Dev nD) :
    (dat1 V c).arrAt 5 cfg1.N
      = chebReluLayer (R := 10000) (K := 256) (N := 128) (V c main_v35) (V c main_v48) (V c main_arg4) (V c main_arg5)
        (V c main_v49) :=
  (dat1 V c).arrAt_eq_of_cover 5 _ (fun t _ => writeback1 V c t) tiles_cover1

end Cert.KernelIdeal.Regions

end
-- ==== Proof.Region2.lean ====
/-
  The third region (the head that returns the means), for any buffer contents `V` at its entry: a grid of 10 points, point t taking rows 1000·t … 1000·t+999 of
  the two [10000, 128] inputs (the features a and their neighbourhood sums h), both whole weight matrices and the bias
  row, and writing rows 1000·t … 1000·t+999 of the [10000, 64] output.  The body multiplies each row tile by its
  weights (all narrowed to bf16, the identity on the extended reals, each product into the zero accumulator), adds the
  two products, adds the bias row to every row; so entry (p, q) of point t's tile is
  (Σₖ a (·, k) · W0 (k, q) + Σₖ h (·, k) · W1 (k, q)) + b (0, q)
  at row 1000·t + p: entry (1000·t + p, q) of the whole-matrix layer `chebLayer a h W0 W1 b`.  The 10 tiles cover the
  output's rows, so after the region the output array IS that layer of the five arrays as the region found them
  (`mean_head`).
-/
import proofs.«101775_j49589692399793_1_alg».proof.Proof.Gen.KernelIdeal.Frame
import proofs.«101775_j49589692399793_1_alg».proof.Proof.LibChebLayers
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.SageLayers Cert.ChebLayers

variable (V : (c : Dev nD) → (b : Ref sig .tc) → Buf (Elt Ideal) ((c : Thread nD τ).loc b))

/-- The origin of a rank-2 rectangle. -/
theorem origin2_2 : (![0, 0] : Fin 2 → Nat) = fun _ => 0 := funext fun a => by fin_cases a <;> rfl

/-- Entry (p, q) of what the body stores, from the five blocks it loads. -/
theorem tile2_at (x0 x1 : Vec Ideal S1000x128 .f32) (x2 x3 : Vec Ideal S128x64 .f32) (x4 : Vec Ideal S1x64 .f32)
    (p : Fin 1000) (q : Fin 64) :
    k2_pay1 x0 x1 x2 x3 x4 (ix2 p q) = chebAt (R := 1000) (K := 128) (N := 64) x0 x1 x2 x3 x4 p q := by
  unfold k2_pay1
  exact kernel_cheb_at (R := 1000) (K := 128) (N := 64) x0 x1 x2 x3 x4 bitsLt_bf16_f32 bitsLt_bf16_f32
    bitsLt_bf16_f32 bitsLt_bf16_f32 shapeCasts_S1000x128_S1000x128 shapeCasts_S1000x128_S1000x128 shapeCasts_S1x64_S1x64
    broadcasts_S1x64_S1000x64 p q

/-- The printed index maps over the grid: the two row inputs' and the output's row-block index is the point, every
    other block index is 0. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is its tile of the whole-matrix layer of the arrays as the region finds them. -/
theorem writeback2 (c : Dev nD) (t : Fin cfg2.N) :
    (dat2 V c).flushed 5 t = ((cfg2.win 5).blk t).view.read (Elt Ideal)
      (chebLayer (R := 10000) (K := 128) (N := 64) (V c main_v50) (V c main_v63) (V c main_arg7) (V c main_arg8)
        (V c main_v64)) := by
  show (cfg2.win 5).cut (grid2.coords t) ((dat2 V c).after 5 t) = _
  rw [after2_5]
  unfold out2_5
  rw [View.canon_unit_zero origin2_2]
  simp only [View.ld_unit_zero (S := S1000x128) origin2_2, View.ld_unit_zero (S := S128x64) origin2_2,
    View.ld_unit_zero (S := S1x64) origin2_2]
  obtain ⟨e00, e01, e10, e11, e20, e21, e30, e31, e40, e41, e50, e51⟩ := blocks2 t
  funext i
  obtain ⟨p, q, rfl⟩ : ∃ (p : Fin 1000) (q : Fin 64), i = ix2 p q := ⟨i 0, i 1, eq_ix2 i⟩
  show k2_pay1 (iblk2 V c 0 t) (iblk2 V c 1 t) (iblk2 V c 2 t) (iblk2 V c 3 t) (iblk2 V c 4 t) (ix2 p q)
    = chebLayer (R := 10000) (K := 128) (N := 64) (V c main_v50) (V c main_v63) (V c main_arg7) (V c main_arg8)
        (V c main_v64)
        (((cfg2.win 5).blk t).view.emb (ix2 p q))
  refine (tile2_at _ _ _ _ _ p q).trans ?_
  unfold chebLayer chebAt dotAt
  refine congrArg₂ (· + ·) (congrArg₂ (· + ·)
    (Finset.sum_congr rfl fun j _ => congrArg₂ (· * ·) ?_ ?_) (Finset.sum_congr rfl fun j _ => congrArg₂ (· * ·) ?_ ?_)) ?_
  · show V c main_v50 (((cfg2.win 0).blk t).view.emb (ix2 p j)) = V c main_v50 _
    refine congrArg _ (funext fun a => Fin.ext ?_)
    match a with
    | ⟨0, _⟩ =>
      show win2_0.index t (0 : Fin 2) * 1000 + 1 * p.val = win2_5.index t (0 : Fin 2) * 1000 + 1 * p.val
      omega
    | ⟨1, _⟩ =>
      show win2_0.index t (1 : Fin 2) * 128 + 1 * j.val = j.val
      omega
  · show V c main_arg7 (((cfg2.win 2).blk t).view.emb (ix2 j q)) = V c main_arg7 _
    refine congrArg _ (funext fun a => Fin.ext ?_)
    match a with
    | ⟨0, _⟩ =>
      show win2_2.index t (0 : Fin 2) * 128 + 1 * j.val = j.val
      omega
    | ⟨1, _⟩ =>
      show win2_2.index t (1 : Fin 2) * 64 + 1 * q.val = win2_5.index t (1 : Fin 2) * 64 + 1 * q.val
      omega
  · show V c main_v63 (((cfg2.win 1).blk t).view.emb (ix2 p j)) = V c main_v63 _
    refine congrArg _ (funext fun a => Fin.ext ?_)
    match a with
    | ⟨0, _⟩ =>
      show win2_1.index t (0 : Fin 2) * 1000 + 1 * p.val = win2_5.index t (0 : Fin 2) * 1000 + 1 * p.val
      omega
    | ⟨1, _⟩ =>
      show win2_1.index t (1 : Fin 2) * 128 + 1 * j.val = j.val
      omega
  · show V c main_arg8 (((cfg2.win 3).blk t).view.emb (ix2 j q)) = V c main_arg8 _
    refine congrArg _ (funext fun a => Fin.ext ?_)
    match a with
    | ⟨0, _⟩ =>
      show win2_3.index t (0 : Fin 2) * 128 + 1 * j.val = j.val
      omega
    | ⟨1, _⟩ =>
      show win2_3.index t (1 : Fin 2) * 64 + 1 * q.val = win2_5.index t (1 : Fin 2) * 64 + 1 * q.val
      omega
  · show V c main_v64 (((cfg2.win 4).blk t).view.emb (ix2 (0 : Fin 1) q)) = V c main_v64 _
    refine congrArg _ (funext fun a => Fin.ext ?_)
    match a with
    | ⟨0, _⟩ =>
      show win2_4.index t (0 : Fin 2) * 1 + 1 * 0 = 0
      omega
    | ⟨1, _⟩ =>
      show win2_4.index t (1 : Fin 2) * 64 + 1 * q.val = win2_5.index t (1 : Fin 2) * 64 + 1 * q.val
      omega

/-- An entry of the output array lies in point `t`'s tile iff each coordinate lies in the tile's range on its axis. -/
theorem mem_tile2 (t : Fin cfg2.N) (i : S10000x64.Idx) :
    i ∈ ((cfg2.win 5).blk t).view.set ↔ ∀ a : Fin 2, win2_5.index t a * S1000x64.size a ≤ (i a).val
      ∧ (i a).val < win2_5.index t a * S1000x64.size a + S1000x64.size a := by
  show i ∈ ((View.whole main_v65).slice (win2_5.rect t)).set ↔ _
  rw [View.set_slice_whole, Rect.mem_set_unit]
  exact Iff.rfl

/-- Row r of the output is in the tile of point r / 1000. -/
theorem tiles_cover2 (i : S10000x64.Idx) :
    ∃ t : Fin cfg2.N, (cfg2.win 5).flush t = true ∧ i ∈ ((cfg2.win 5).blk t).view.set := by
  have hi0 : (i 0).val < 10000 := (i 0).isLt
  have hi1 : (i 1).val < 64 := (i 1).isLt
  have hN : cfg2.N = 10 := N_2
  have ht : (i 0).val / 1000 < cfg2.N := by rw [hN]; omega
  obtain ⟨-, -, -, -, -, -, -, -, -, -, e50, e51⟩ := blocks2 ⟨(i 0).val / 1000, ht⟩
  refine ⟨⟨(i 0).val / 1000, ht⟩, flush2_5 _, ?_⟩
  rw [mem_tile2]
  intro a
  match a with
  | ⟨0, _⟩ =>
    show win2_5.index ⟨(i 0).val / 1000, ht⟩ (0 : Fin 2) * 1000 ≤ (i 0).val
      ∧ (i 0).val < win2_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win2_5.index ⟨(i 0).val / 1000, ht⟩ (1 : Fin 2) * 64 ≤ (i 1).val
      ∧ (i 1).val < win2_5.index ⟨(i 0).val / 1000, ht⟩ (1 : Fin 2) * 64 + 64
    rw [e51]
    omega

/-- After the region its output array is the layer of the arrays the region found. -/
theorem mean_head (c : Dev nD) :
    (dat2 V c).arrAt 5 cfg2.N
      = chebLayer (R := 10000) (K := 128) (N := 64) (V c main_v50) (V c main_v63) (V c main_arg7) (V c main_arg8)
        (V c main_v64) :=
  (dat2 V c).arrAt_eq_of_cover 5 _ (fun t _ => writeback2 V c t) tiles_cover2

end Cert.KernelIdeal.Regions

end
-- ==== Proof.Region3.lean ====
/-
  The fourth region (the head that returns the log standard deviations), for any buffer contents `V` at its entry: a grid of 10 points, point t taking rows 1000·t … 1000·t+999 of
  the two [10000, 128] inputs (the features a and their neighbourhood sums h), both whole weight matrices and the bias
  row, and writing rows 1000·t … 1000·t+999 of the [10000, 64] output.  The body multiplies each row tile by its
  weights (all narrowed to bf16, the identity on the extended reals, each product into the zero accumulator), adds the
  two products, adds the bias row to every row; so entry (p, q) of point t's tile is
  (Σₖ a (·, k) · W0 (k, q) + Σₖ h (·, k) · W1 (k, q)) + b (0, q)
  at row 1000·t + p: entry (1000·t + p, q) of the whole-matrix layer `chebLayer a h W0 W1 b`.  The 10 tiles cover the
  output's rows, so after the region the output array IS that layer of the five arrays as the region found them
  (`logstd_head`).
-/
import proofs.«101775_j49589692399793_1_alg».proof.Proof.Gen.KernelIdeal.Frame
import proofs.«101775_j49589692399793_1_alg».proof.Proof.LibChebLayers
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.SageLayers Cert.ChebLayers

variable (V : (c : Dev nD) → (b : Ref sig .tc) → Buf (Elt Ideal) ((c : Thread nD τ).loc b))

/-- The origin of a rank-2 rectangle. -/
theorem origin2_3 : (![0, 0] : Fin 2 → Nat) = fun _ => 0 := funext fun a => by fin_cases a <;> rfl

/-- Entry (p, q) of what the body stores, from the five blocks it loads. -/
theorem tile3_at (x0 x1 : Vec Ideal S1000x128 .f32) (x2 x3 : Vec Ideal S128x64 .f32) (x4 : Vec Ideal S1x64 .f32)
    (p : Fin 1000) (q : Fin 64) :
    k3_pay1 x0 x1 x2 x3 x4 (ix2 p q) = chebAt (R := 1000) (K := 128) (N := 64) x0 x1 x2 x3 x4 p q := by
  unfold k3_pay1
  exact kernel_cheb_at (R := 1000) (K := 128) (N := 64) x0 x1 x2 x3 x4 bitsLt_bf16_f32 bitsLt_bf16_f32
    bitsLt_bf16_f32 bitsLt_bf16_f32 shapeCasts_S1000x128_S1000x128 shapeCasts_S1000x128_S1000x128 shapeCasts_S1x64_S1x64
    broadcasts_S1x64_S1000x64 p q

/-- The printed index maps over the grid: the two row inputs' and the output's row-block index is the point, every
    other block index is 0. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is its tile of the whole-matrix layer of the arrays as the region finds them. -/
theorem writeback3 (c : Dev nD) (t : Fin cfg3.N) :
    (dat3 V c).flushed 5 t = ((cfg3.win 5).blk t).view.read (Elt Ideal)
      (chebLayer (R := 10000) (K := 128) (N := 64) (V c main_v50) (V c main_v63) (V c main_arg10) (V c main_arg11)
        (V c main_v66)) := by
  show (cfg3.win 5).cut (grid3.coords t) ((dat3 V c).after 5 t) = _
  rw [after3_5]
  unfold out3_5
  rw [View.canon_unit_zero origin2_3]
  simp only [View.ld_unit_zero (S := S1000x128) origin2_3, View.ld_unit_zero (S := S128x64) origin2_3,
    View.ld_unit_zero (S := S1x64) origin2_3]
  obtain ⟨e00, e01, e10, e11, e20, e21, e30, e31, e40, e41, e50, e51⟩ := blocks3 t
  funext i
  obtain ⟨p, q, rfl⟩ : ∃ (p : Fin 1000) (q : Fin 64), i = ix2 p q := ⟨i 0, i 1, eq_ix2 i⟩
  show k3_pay1 (iblk3 V c 0 t) (iblk3 V c 1 t) (iblk3 V c 2 t) (iblk3 V c 3 t) (iblk3 V c 4 t) (ix2 p q)
    = chebLayer (R := 10000) (K := 128) (N := 64) (V c main_v50) (V c main_v63) (V c main_arg10) (V c main_arg11)
        (V c main_v66)
        (((cfg3.win 5).blk t).view.emb (ix2 p q))
  refine (tile3_at _ _ _ _ _ p q).trans ?_
  unfold chebLayer chebAt dotAt
  refine congrArg₂ (· + ·) (congrArg₂ (· + ·)
    (Finset.sum_congr rfl fun j _ => congrArg₂ (· * ·) ?_ ?_) (Finset.sum_congr rfl fun j _ => congrArg₂ (· * ·) ?_ ?_)) ?_
  · show V c main_v50 (((cfg3.win 0).blk t).view.emb (ix2 p j)) = V c main_v50 _
    refine congrArg _ (funext fun a => Fin.ext ?_)
    match a with
    | ⟨0, _⟩ =>
      show win3_0.index t (0 : Fin 2) * 1000 + 1 * p.val = win3_5.index t (0 : Fin 2) * 1000 + 1 * p.val
      omega
    | ⟨1, _⟩ =>
      show win3_0.index t (1 : Fin 2) * 128 + 1 * j.val = j.val
      omega
  · show V c main_arg10 (((cfg3.win 2).blk t).view.emb (ix2 j q)) = V c main_arg10 _
    refine congrArg _ (funext fun a => Fin.ext ?_)
    match a with
    | ⟨0, _⟩ =>
      show win3_2.index t (0 : Fin 2) * 128 + 1 * j.val = j.val
      omega
    | ⟨1, _⟩ =>
      show win3_2.index t (1 : Fin 2) * 64 + 1 * q.val = win3_5.index t (1 : Fin 2) * 64 + 1 * q.val
      omega
  · show V c main_v63 (((cfg3.win 1).blk t).view.emb (ix2 p j)) = V c main_v63 _
    refine congrArg _ (funext fun a => Fin.ext ?_)
    match a with
    | ⟨0, _⟩ =>
      show win3_1.index t (0 : Fin 2) * 1000 + 1 * p.val = win3_5.index t (0 : Fin 2) * 1000 + 1 * p.val
      omega
    | ⟨1, _⟩ =>
      show win3_1.index t (1 : Fin 2) * 128 + 1 * j.val = j.val
      omega
  · show V c main_arg11 (((cfg3.win 3).blk t).view.emb (ix2 j q)) = V c main_arg11 _
    refine congrArg _ (funext fun a => Fin.ext ?_)
    match a with
    | ⟨0, _⟩ =>
      show win3_3.index t (0 : Fin 2) * 128 + 1 * j.val = j.val
      omega
    | ⟨1, _⟩ =>
      show win3_3.index t (1 : Fin 2) * 64 + 1 * q.val = win3_5.index t (1 : Fin 2) * 64 + 1 * q.val
      omega
  · show V c main_v66 (((cfg3.win 4).blk t).view.emb (ix2 (0 : Fin 1) q)) = V c main_v66 _
    refine congrArg _ (funext fun a => Fin.ext ?_)
    match a with
    | ⟨0, _⟩ =>
      show win3_4.index t (0 : Fin 2) * 1 + 1 * 0 = 0
      omega
    | ⟨1, _⟩ =>
      show win3_4.index t (1 : Fin 2) * 64 + 1 * q.val = win3_5.index t (1 : Fin 2) * 64 + 1 * q.val
      omega

/-- An entry of the output array lies in point `t`'s tile iff each coordinate lies in the tile's range on its axis. -/
theorem mem_tile3 (t : Fin cfg3.N) (i : S10000x64.Idx) :
    i ∈ ((cfg3.win 5).blk t).view.set ↔ ∀ a : Fin 2, win3_5.index t a * S1000x64.size a ≤ (i a).val
      ∧ (i a).val < win3_5.index t a * S1000x64.size a + S1000x64.size a := by
  show i ∈ ((View.whole main_v67).slice (win3_5.rect t)).set ↔ _
  rw [View.set_slice_whole, Rect.mem_set_unit]
  exact Iff.rfl

/-- Row r of the output is in the tile of point r / 1000. -/
theorem tiles_cover3 (i : S10000x64.Idx) :
    ∃ t : Fin cfg3.N, (cfg3.win 5).flush t = true ∧ i ∈ ((cfg3.win 5).blk t).view.set := by
  have hi0 : (i 0).val < 10000 := (i 0).isLt
  have hi1 : (i 1).val < 64 := (i 1).isLt
  have hN : cfg3.N = 10 := N_3
  have ht : (i 0).val / 1000 < cfg3.N := by rw [hN]; omega
  obtain ⟨-, -, -, -, -, -, -, -, -, -, e50, e51⟩ := blocks3 ⟨(i 0).val / 1000, ht⟩
  refine ⟨⟨(i 0).val / 1000, ht⟩, flush3_5 _, ?_⟩
  rw [mem_tile3]
  intro a
  match a with
  | ⟨0, _⟩ =>
    show win3_5.index ⟨(i 0).val / 1000, ht⟩ (0 : Fin 2) * 1000 ≤ (i 0).val
      ∧ (i 0).val < win3_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win3_5.index ⟨(i 0).val / 1000, ht⟩ (1 : Fin 2) * 64 ≤ (i 1).val
      ∧ (i 1).val < win3_5.index ⟨(i 0).val / 1000, ht⟩ (1 : Fin 2) * 64 + 64
    rw [e51]
    omega

/-- After the region its output array is the layer of the arrays the region found. -/
theorem logstd_head (c : Dev nD) :
    (dat3 V c).arrAt 5 cfg3.N
      = chebLayer (R := 10000) (K := 128) (N := 64) (V c main_v50) (V c main_v63) (V c main_arg10) (V c main_arg11)
        (V c main_v66) :=
  (dat3 V c).arrAt_eq_of_cover 5 _ (fun t _ => writeback3 V c t) tiles_cover3

end Cert.KernelIdeal.Regions

end
-- ==== Proof.KernelFold.lean ====
/-
  The kernel program's buffers at the boundaries between its segments, read back.  Between two segments a buffer holds
  what the last segment that wrote it left: a host stretch's operation writes its one result and nothing else, a region
  writes its output array and nothing else.  So
    * an argument holds its launch contents at every boundary;
    * a bias vector reshaped to a [1, N] row by the stretch before a region holds that row at the region's entry;
    * each region's output holds, from the region's exit on, the layer function of what the region found in its input
      arrays (`Regions.first_layer`, `second_layer`, `mean_head`, `logstd_head`), and a region's input arrays are as it
      found them.
  The edge lists, the edge weights and the two neighbourhood sums (written by host stretches from earlier buffers) are
  compared with the reference's in the bridge module; here they are only carried across the segments that do not
  write them.  Boundary k's contents are the generated `Gen.Wk`; `W3`, `W5`, `W7`, `W9` are the regions' entries and
  `W4`, `W6`, `W8`, `W10` their exits.
-/
import proofs.«101775_j49589692399793_1_alg».proof.Proof.Region0
import proofs.«101775_j49589692399793_1_alg».proof.Proof.Region1
import proofs.«101775_j49589692399793_1_alg».proof.Proof.Region2
import proofs.«101775_j49589692399793_1_alg».proof.Proof.Region3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx Idealize.ShloMosaic.StableHlo
open Cert.SageLayers Cert.ChebLayers

variable (m : (ℓ : Loc nD τ sig) → Buf (Elt Ideal) ℓ) (ρ : Dev nD → PrngReg) (c : Dev nD)

/-! ## The first region's entry (three host stretches from the launch) -/

theorem at3_arg0 : W3 m ρ c (Proc.devRef .tc main_arg0) = W0 m ρ c (Proc.devRef .tc main_arg0) := by
  show StableHlo.after hostOps0_2 (StableHlo.after hostOps0_1 (StableHlo.after hostOps0 (W0 m ρ c))) _ = _
  after_results_simp <;> rfl

theorem at3_arg2 : W3 m ρ c (Proc.devRef .tc main_arg2) = W0 m ρ c (Proc.devRef .tc main_arg2) := by
  show StableHlo.after hostOps0_2 (StableHlo.after hostOps0_1 (StableHlo.after hostOps0 (W0 m ρ c))) _ = _
  after_results_simp <;> rfl

theorem at3_arg4 : W3 m ρ c (Proc.devRef .tc main_arg4) = W0 m ρ c (Proc.devRef .tc main_arg4) := by
  show StableHlo.after hostOps0_2 (StableHlo.after hostOps0_1 (StableHlo.after hostOps0 (W0 m ρ c))) _ = _
  after_results_simp <;> rfl

theorem at3_arg5 : W3 m ρ c (Proc.devRef .tc main_arg5) = W0 m ρ c (Proc.devRef .tc main_arg5) := by
  show StableHlo.after hostOps0_2 (StableHlo.after hostOps0_1 (StableHlo.after hostOps0 (W0 m ρ c))) _ = _
  after_results_simp <;> rfl

theorem at3_arg6 : W3 m ρ c (Proc.devRef .tc main_arg6) = W0 m ρ c (Proc.devRef .tc main_arg6) := by
  show StableHlo.after hostOps0_2 (StableHlo.after hostOps0_1 (StableHlo.after hostOps0 (W0 m ρ c))) _ = _
  after_results_simp <;> rfl

theorem at3_arg7 : W3 m ρ c (Proc.devRef .tc main_arg7) = W0 m ρ c (Proc.devRef .tc main_arg7) := by
  show StableHlo.after hostOps0_2 (StableHlo.after hostOps0_1 (StableHlo.after hostOps0 (W0 m ρ c))) _ = _
  after_results_simp <;> rfl

theorem at3_arg8 : W3 m ρ c (Proc.devRef .tc main_arg8) = W0 m ρ c (Proc.devRef .tc main_arg8) := by
  show StableHlo.after hostOps0_2 (StableHlo.after hostOps0_1 (StableHlo.after hostOps0 (W0 m ρ c))) _ = _
  after_results_simp <;> rfl

theorem at3_arg9 : W3 m ρ c (Proc.devRef .tc main_arg9) = W0 m ρ c (Proc.devRef .tc main_arg9) := by
  show StableHlo.after hostOps0_2 (StableHlo.after hostOps0_1 (StableHlo.after hostOps0 (W0 m ρ c))) _ = _
  after_results_simp <;> rfl

theorem at3_arg10 : W3 m ρ c (Proc.devRef .tc main_arg10) = W0 m ρ c (Proc.devRef .tc main_arg10) := by
  show StableHlo.after hostOps0_2 (StableHlo.after hostOps0_1 (StableHlo.after hostOps0 (W0 m ρ c))) _ = _
  after_results_simp <;> rfl

theorem at3_arg11 : W3 m ρ c (Proc.devRef .tc main_arg11) = W0 m ρ c (Proc.devRef .tc main_arg11) := by
  show StableHlo.after hostOps0_2 (StableHlo.after hostOps0_1 (StableHlo.after hostOps0 (W0 m ρ c))) _ = _
  after_results_simp <;> rfl

theorem at3_arg12 : W3 m ρ c (Proc.devRef .tc main_arg12) = W0 m ρ c (Proc.devRef .tc main_arg12) := by
  show StableHlo.after hostOps0_2 (StableHlo.after hostOps0_1 (StableHlo.after hostOps0 (W0 m ρ c))) _ = _
  after_results_simp <;> rfl

/-- The first bias vector as a [1, 256] row. -/
theorem at3_v34 : W3 m ρ c (Proc.devRef .tc main_v34) = shapeCast S1x256 (W0 m ρ c (Proc.devRef .tc main_arg3)) shapeCasts_S256_S1x256 := by
  show StableHlo.after hostOps0_2 (StableHlo.after hostOps0_1 (StableHlo.after hostOps0 (W0 m ρ c))) _ = _
  after_results_simp <;> rfl

/-! ## The first region's exit -/

/-- The first layer's output: max (x · Wt + bt, 0) of the launch contents. -/
theorem at4_v35 : W4 m ρ c (Proc.devRef .tc main_v35)
    = projLayer (R := 10000) (K := 10000) (N := 256) (W0 m ρ c (Proc.devRef .tc main_arg0)) (W0 m ρ c (Proc.devRef .tc main_arg2))
        (shapeCast S1x256 (W0 m ρ c (Proc.devRef .tc main_arg3)) shapeCasts_S256_S1x256) := by
  refine (W4_arr m ρ c 3).trans ((Regions.first_layer (V3 m ρ) c).trans ?_)
  show projLayer (R := 10000) (K := 10000) (N := 256) (W3 m ρ c (Proc.devRef .tc main_arg0)) (W3 m ρ c (Proc.devRef .tc main_arg2))
    (W3 m ρ c (Proc.devRef .tc main_v34)) = _
  rw [at3_arg0, at3_arg2, at3_v34]

theorem at4_v1 : W4 m ρ c (Proc.devRef .tc main_v1) = W3 m ρ c (Proc.devRef .tc main_v1) := W4_of_ne m ρ c main_v1 (by decide)

theorem at4_v3 : W4 m ρ c (Proc.devRef .tc main_v3) = W3 m ρ c (Proc.devRef .tc main_v3) := W4_of_ne m ρ c main_v3 (by decide)

theorem at4_v33 : W4 m ρ c (Proc.devRef .tc main_v33) = W3 m ρ c (Proc.devRef .tc main_v33) := W4_of_ne m ρ c main_v33 (by decide)

theorem at4_arg4 : W4 m ρ c (Proc.devRef .tc main_arg4) = W0 m ρ c (Proc.devRef .tc main_arg4) :=
  (W4_of_ne m ρ c main_arg4 (by decide)).trans (at3_arg4 m ρ c)

theorem at4_arg5 : W4 m ρ c (Proc.devRef .tc main_arg5) = W0 m ρ c (Proc.devRef .tc main_arg5) :=
  (W4_of_ne m ρ c main_arg5 (by decide)).trans (at3_arg5 m ρ c)

theorem at4_arg6 : W4 m ρ c (Proc.devRef .tc main_arg6) = W0 m ρ c (Proc.devRef .tc main_arg6) :=
  (W4_of_ne m ρ c main_arg6 (by decide)).trans (at3_arg6 m ρ c)

theorem at4_arg7 : W4 m ρ c (Proc.devRef .tc main_arg7) = W0 m ρ c (Proc.devRef .tc main_arg7) :=
  (W4_of_ne m ρ c main_arg7 (by decide)).trans (at3_arg7 m ρ c)

theorem at4_arg8 : W4 m ρ c (Proc.devRef .tc main_arg8) = W0 m ρ c (Proc.devRef .tc main_arg8) :=
  (W4_of_ne m ρ c main_arg8 (by decide)).trans (at3_arg8 m ρ c)

theorem at4_arg9 : W4 m ρ c (Proc.devRef .tc main_arg9) = W0 m ρ c (Proc.devRef .tc main_arg9) :=
  (W4_of_ne m ρ c main_arg9 (by decide)).trans (at3_arg9 m ρ c)

theorem at4_arg10 : W4 m ρ c (Proc.devRef .tc main_arg10) = W0 m ρ c (Proc.devRef .tc main_arg10) :=
  (W4_of_ne m ρ c main_arg10 (by decide)).trans (at3_arg10 m ρ c)

theorem at4_arg11 : W4 m ρ c (Proc.devRef .tc main_arg11) = W0 m ρ c (Proc.devRef .tc main_arg11) :=
  (W4_of_ne m ρ c main_arg11 (by decide)).trans (at3_arg11 m ρ c)

theorem at4_arg12 : W4 m ρ c (Proc.devRef .tc main_arg12) = W0 m ρ c (Proc.devRef .tc main_arg12) :=
  (W4_of_ne m ρ c main_arg12 (by decide)).trans (at3_arg12 m ρ c)

/-! ## The second region's entry (the stretch that forms the first neighbourhood sum) -/

theorem at5_v35 : W5 m ρ c (Proc.devRef .tc main_v35) = W4 m ρ c (Proc.devRef .tc main_v35) := by
  show StableHlo.after hostOps1 (W4 m ρ c) _ = _
  after_results_simp <;> rfl

theorem at5_v1 : W5 m ρ c (Proc.devRef .tc main_v1) = W3 m ρ c (Proc.devRef .tc main_v1) := by
  refine Eq.trans ?_ (at4_v1 m ρ c)
  show StableHlo.after hostOps1 (W4 m ρ c) _ = _
  after_results_simp <;> rfl

theorem at5_v3 : W5 m ρ c (Proc.devRef .tc main_v3) = W3 m ρ c (Proc.devRef .tc main_v3) := by
  refine Eq.trans ?_ (at4_v3 m ρ c)
  show StableHlo.after hostOps1 (W4 m ρ c) _ = _
  after_results_simp <;> rfl

theorem at5_v33 : W5 m ρ c (Proc.devRef .tc main_v33) = W3 m ρ c (Proc.devRef .tc main_v33) := by
  refine Eq.trans ?_ (at4_v33 m ρ c)
  show StableHlo.after hostOps1 (W4 m ρ c) _ = _
  after_results_simp <;> rfl

theorem at5_arg4 : W5 m ρ c (Proc.devRef .tc main_arg4) = W0 m ρ c (Proc.devRef .tc main_arg4) := by
  refine Eq.trans ?_ (at4_arg4 m ρ c)
  show StableHlo.after hostOps1 (W4 m ρ c) _ = _
  after_results_simp <;> rfl

theorem at5_arg5 : W5 m ρ c (Proc.devRef .tc main_arg5) = W0 m ρ c (Proc.devRef .tc main_arg5) := by
  refine Eq.trans ?_ (at4_arg5 m ρ c)
  show StableHlo.after hostOps1 (W4 m ρ c) _ = _
  after_results_simp <;> rfl

theorem at5_arg7 : W5 m ρ c (Proc.devRef .tc main_arg7) = W0 m ρ c (Proc.devRef .tc main_arg7) := by
  refine Eq.trans ?_ (at4_arg7 m ρ c)
  show StableHlo.after hostOps1 (W4 m ρ c) _ = _
  after_results_simp <;> rfl

theorem at5_arg8 : W5 m ρ c (Proc.devRef .tc main_arg8) = W0 m ρ c (Proc.devRef .tc main_arg8) := by
  refine Eq.trans ?_ (at4_arg8 m ρ c)
  show StableHlo.after hostOps1 (W4 m ρ c) _ = _
  after_results_simp <;> rfl

theorem at5_arg9 : W5 m ρ c (Proc.devRef .tc main_arg9) = W0 m ρ c (Proc.devRef .tc main_arg9) := by
  refine Eq.trans ?_ (at4_arg9 m ρ c)
  show StableHlo.after hostOps1 (W4 m ρ c) _ = _
  after_results_simp <;> rfl

theorem at5_arg10 : W5 m ρ c (Proc.devRef .tc main_arg10) = W0 m ρ c (Proc.devRef .tc main_arg10) := by
  refine Eq.trans ?_ (at4_arg10 m ρ c)
  show StableHlo.after hostOps1 (W4 m ρ c) _ = _
  after_results_simp <;> rfl

theorem at5_arg11 : W5 m ρ c (Proc.devRef .tc main_arg11) = W0 m ρ c (Proc.devRef .tc main_arg11) := by
  refine Eq.trans ?_ (at4_arg11 m ρ c)
  show StableHlo.after hostOps1 (W4 m ρ c) _ = _
  after_results_simp <;> rfl

theorem at5_arg12 : W5 m ρ c (Proc.devRef .tc main_arg12) = W0 m ρ c (Proc.devRef .tc main_arg12) := by
  refine Eq.trans ?_ (at4_arg12 m ρ c)
  show StableHlo.after hostOps1 (W4 m ρ c) _ = _
  after_results_simp <;> rfl

/-- The second bias vector as a [1, 128] row. -/
theorem at5_v49 : W5 m ρ c (Proc.devRef .tc main_v49) = shapeCast S1x128 (W0 m ρ c (Proc.devRef .tc main_arg6)) shapeCasts_S128_S1x128 := by
  refine Eq.trans ?_ (congrArg (fun v => shapeCast S1x128 v shapeCasts_S128_S1x128) (at4_arg6 m ρ c))
  show StableHlo.after hostOps1 (W4 m ρ c) _ = _
  after_results_simp <;> rfl

/-! ## The second region's exit -/

/-- The second layer's output, from the first layer's and the first neighbourhood sum as the region found them. -/
theorem at6_v50 : W6 m ρ c (Proc.devRef .tc main_v50)
    = chebReluLayer (R := 10000) (K := 256) (N := 128) (W4 m ρ c (Proc.devRef .tc main_v35)) (W5 m ρ c (Proc.devRef .tc main_v48))
        (W0 m ρ c (Proc.devRef .tc main_arg4)) (W0 m ρ c (Proc.devRef .tc main_arg5)) (shapeCast S1x128 (W0 m ρ c (Proc.devRef .tc main_arg6)) shapeCasts_S128_S1x128) := by
  refine (W6_arr m ρ c 5).trans ((Regions.second_layer (V5 m ρ) c).trans ?_)
  show chebReluLayer (R := 10000) (K := 256) (N := 128) (W5 m ρ c (Proc.devRef .tc main_v35)) (W5 m ρ c (Proc.devRef .tc main_v48))
    (W5 m ρ c (Proc.devRef .tc main_arg4)) (W5 m ρ c (Proc.devRef .tc main_arg5)) (W5 m ρ c (Proc.devRef .tc main_v49)) = _
  rw [at5_v35, at5_arg4, at5_arg5, at5_v49]

theorem at6_v1 : W6 m ρ c (Proc.devRef .tc main_v1) = W3 m ρ c (Proc.devRef .tc main_v1) :=
  (W6_of_ne m ρ c main_v1 (by decide)).trans (at5_v1 m ρ c)

theorem at6_v3 : W6 m ρ c (Proc.devRef .tc main_v3) = W3 m ρ c (Proc.devRef .tc main_v3) :=
  (W6_of_ne m ρ c main_v3 (by decide)).trans (at5_v3 m ρ c)

theorem at6_v33 : W6 m ρ c (Proc.devRef .tc main_v33) = W3 m ρ c (Proc.devRef .tc main_v33) :=
  (W6_of_ne m ρ c main_v33 (by decide)).trans (at5_v33 m ρ c)

theorem at6_arg7 : W6 m ρ c (Proc.devRef .tc main_arg7) = W0 m ρ c (Proc.devRef .tc main_arg7) :=
  (W6_of_ne m ρ c main_arg7 (by decide)).trans (at5_arg7 m ρ c)

theorem at6_arg8 : W6 m ρ c (Proc.devRef .tc main_arg8) = W0 m ρ c (Proc.devRef .tc main_arg8) :=
  (W6_of_ne m ρ c main_arg8 (by decide)).trans (at5_arg8 m ρ c)

theorem at6_arg9 : W6 m ρ c (Proc.devRef .tc main_arg9) = W0 m ρ c (Proc.devRef .tc main_arg9) :=
  (W6_of_ne m ρ c main_arg9 (by decide)).trans (at5_arg9 m ρ c)

theorem at6_arg10 : W6 m ρ c (Proc.devRef .tc main_arg10) = W0 m ρ c (Proc.devRef .tc main_arg10) :=
  (W6_of_ne m ρ c main_arg10 (by decide)).trans (at5_arg10 m ρ c)

theorem at6_arg11 : W6 m ρ c (Proc.devRef .tc main_arg11) = W0 m ρ c (Proc.devRef .tc main_arg11) :=
  (W6_of_ne m ρ c main_arg11 (by decide)).trans (at5_arg11 m ρ c)

theorem at6_arg12 : W6 m ρ c (Proc.devRef .tc main_arg12) = W0 m ρ c (Proc.devRef .tc main_arg12) :=
  (W6_of_ne m ρ c main_arg12 (by decide)).trans (at5_arg12 m ρ c)

/-! ## The third region's entry (the stretch that forms the second neighbourhood sum) -/

theorem at7_v50 : W7 m ρ c (Proc.devRef .tc main_v50) = W6 m ρ c (Proc.devRef .tc main_v50) := by
  show StableHlo.after hostOps2 (W6 m ρ c) _ = _
  after_results_simp <;> rfl

theorem at7_arg7 : W7 m ρ c (Proc.devRef .tc main_arg7) = W0 m ρ c (Proc.devRef .tc main_arg7) := by
  refine Eq.trans ?_ (at6_arg7 m ρ c)
  show StableHlo.after hostOps2 (W6 m ρ c) _ = _
  after_results_simp <;> rfl

theorem at7_arg8 : W7 m ρ c (Proc.devRef .tc main_arg8) = W0 m ρ c (Proc.devRef .tc main_arg8) := by
  refine Eq.trans ?_ (at6_arg8 m ρ c)
  show StableHlo.after hostOps2 (W6 m ρ c) _ = _
  after_results_simp <;> rfl

theorem at7_arg10 : W7 m ρ c (Proc.devRef .tc main_arg10) = W0 m ρ c (Proc.devRef .tc main_arg10) := by
  refine Eq.trans ?_ (at6_arg10 m ρ c)
  show StableHlo.after hostOps2 (W6 m ρ c) _ = _
  after_results_simp <;> rfl

theorem at7_arg11 : W7 m ρ c (Proc.devRef .tc main_arg11) = W0 m ρ c (Proc.devRef .tc main_arg11) := by
  refine Eq.trans ?_ (at6_arg11 m ρ c)
  show StableHlo.after hostOps2 (W6 m ρ c) _ = _
  after_results_simp <;> rfl

theorem at7_arg12 : W7 m ρ c (Proc.devRef .tc main_arg12) = W0 m ρ c (Proc.devRef .tc main_arg12) := by
  refine Eq.trans ?_ (at6_arg12 m ρ c)
  show StableHlo.after hostOps2 (W6 m ρ c) _ = _
  after_results_simp <;> rfl

/-- The third bias vector as a [1, 64] row. -/
theorem at7_v64 : W7 m ρ c (Proc.devRef .tc main_v64) = shapeCast S1x64 (W0 m ρ c (Proc.devRef .tc main_arg9)) shapeCasts_S64_S1x64 := by
  refine Eq.trans ?_ (congrArg (fun v => shapeCast S1x64 v shapeCasts_S64_S1x64) (at6_arg9 m ρ c))
  show StableHlo.after hostOps2 (W6 m ρ c) _ = _
  after_results_simp <;> rfl

/-! ## The third region's exit -/

/-- The first head's output, from the second layer's and the second neighbourhood sum as the region found them. -/
theorem at8_v65 : W8 m ρ c (Proc.devRef .tc main_v65)
    = chebLayer (R := 10000) (K := 128) (N := 64) (W6 m ρ c (Proc.devRef .tc main_v50)) (W7 m ρ c (Proc.devRef .tc main_v63))
        (W0 m ρ c (Proc.devRef .tc main_arg7)) (W0 m ρ c (Proc.devRef .tc main_arg8)) (shapeCast S1x64 (W0 m ρ c (Proc.devRef .tc main_arg9)) shapeCasts_S64_S1x64) := by
  refine (W8_arr m ρ c 5).trans ((Regions.mean_head (V7 m ρ) c).trans ?_)
  show chebLayer (R := 10000) (K := 128) (N := 64) (W7 m ρ c (Proc.devRef .tc main_v50)) (W7 m ρ c (Proc.devRef .tc main_v63))
    (W7 m ρ c (Proc.devRef .tc main_arg7)) (W7 m ρ c (Proc.devRef .tc main_arg8)) (W7 m ρ c (Proc.devRef .tc main_v64)) = _
  rw [at7_v50, at7_arg7, at7_arg8, at7_v64]

/-- The region leaves its two row inputs as it found them. -/
theorem at8_v50 : W8 m ρ c (Proc.devRef .tc main_v50) = W6 m ρ c (Proc.devRef .tc main_v50) :=
  (W8_arr m ρ c 0).trans ((((dat2 (V7 m ρ) c).arrAt_in 0 rfl _).trans (A_eq2 (V7 m ρ) c 0)).trans (at7_v50 m ρ c))
theorem at8_v63 : W8 m ρ c (Proc.devRef .tc main_v63) = W7 m ρ c (Proc.devRef .tc main_v63) :=
  (W8_arr m ρ c 1).trans (((dat2 (V7 m ρ) c).arrAt_in 1 rfl _).trans (A_eq2 (V7 m ρ) c 1))

theorem at8_arg10 : W8 m ρ c (Proc.devRef .tc main_arg10) = W0 m ρ c (Proc.devRef .tc main_arg10) :=
  (W8_of_ne m ρ c main_arg10 (by decide)).trans (at7_arg10 m ρ c)

theorem at8_arg11 : W8 m ρ c (Proc.devRef .tc main_arg11) = W0 m ρ c (Proc.devRef .tc main_arg11) :=
  (W8_of_ne m ρ c main_arg11 (by decide)).trans (at7_arg11 m ρ c)

theorem at8_arg12 : W8 m ρ c (Proc.devRef .tc main_arg12) = W0 m ρ c (Proc.devRef .tc main_arg12) :=
  (W8_of_ne m ρ c main_arg12 (by decide)).trans (at7_arg12 m ρ c)

/-! ## The fourth region's entry (one reshape) and exit -/

theorem at9_v50 : W9 m ρ c (Proc.devRef .tc main_v50) = W8 m ρ c (Proc.devRef .tc main_v50) := by
  show StableHlo.after hostOps3 (W8 m ρ c) _ = _
  after_results_simp <;> rfl

theorem at9_v63 : W9 m ρ c (Proc.devRef .tc main_v63) = W8 m ρ c (Proc.devRef .tc main_v63) := by
  show StableHlo.after hostOps3 (W8 m ρ c) _ = _
  after_results_simp <;> rfl

theorem at9_v65 : W9 m ρ c (Proc.devRef .tc main_v65) = W8 m ρ c (Proc.devRef .tc main_v65) := by
  show StableHlo.after hostOps3 (W8 m ρ c) _ = _
  after_results_simp <;> rfl

theorem at9_arg10 : W9 m ρ c (Proc.devRef .tc main_arg10) = W0 m ρ c (Proc.devRef .tc main_arg10) := by
  refine Eq.trans ?_ (at8_arg10 m ρ c)
  show StableHlo.after hostOps3 (W8 m ρ c) _ = _
  after_results_simp <;> rfl

theorem at9_arg11 : W9 m ρ c (Proc.devRef .tc main_arg11) = W0 m ρ c (Proc.devRef .tc main_arg11) := by
  refine Eq.trans ?_ (at8_arg11 m ρ c)
  show StableHlo.after hostOps3 (W8 m ρ c) _ = _
  after_results_simp <;> rfl

/-- The fourth bias vector as a [1, 64] row. -/
theorem at9_v66 : W9 m ρ c (Proc.devRef .tc main_v66) = shapeCast S1x64 (W0 m ρ c (Proc.devRef .tc main_arg12)) shapeCasts_S64_S1x64 := by
  refine Eq.trans ?_ (congrArg (fun v => shapeCast S1x64 v shapeCasts_S64_S1x64) (at8_arg12 m ρ c))
  show StableHlo.after hostOps3 (W8 m ρ c) _ = _
  after_results_simp <;> rfl

/-- The second head's output, from the second layer's and the second neighbourhood sum as the third region found
    them. -/
theorem at10_v67 : W10 m ρ c (Proc.devRef .tc main_v67)
    = chebLayer (R := 10000) (K := 128) (N := 64) (W6 m ρ c (Proc.devRef .tc main_v50)) (W7 m ρ c (Proc.devRef .tc main_v63))
        (W0 m ρ c (Proc.devRef .tc main_arg10)) (W0 m ρ c (Proc.devRef .tc main_arg11)) (shapeCast S1x64 (W0 m ρ c (Proc.devRef .tc main_arg12)) shapeCasts_S64_S1x64) := by
  refine (W10_arr m ρ c 5).trans ((Regions.logstd_head (V9 m ρ) c).trans ?_)
  show chebLayer (R := 10000) (K := 128) (N := 64) (W9 m ρ c (Proc.devRef .tc main_v50)) (W9 m ρ c (Proc.devRef .tc main_v63))
    (W9 m ρ c (Proc.devRef .tc main_arg10)) (W9 m ρ c (Proc.devRef .tc main_arg11)) (W9 m ρ c (Proc.devRef .tc main_v66)) = _
  rw [at9_v50, at8_v50, at9_v63, at8_v63, at9_arg10, at9_arg11, at9_v66]

/-- The first head's output is not touched after its region. -/
theorem at10_v65 : W10 m ρ c (Proc.devRef .tc main_v65) = W8 m ρ c (Proc.devRef .tc main_v65) :=
  (W10_of_ne m ρ c main_v65 (by decide)).trans (at9_v65 m ρ c)

end Cert.KernelIdeal.Fold

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«101775_j49589692399793_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.Bridge.lean ====
/-
  The two programs compute the same two arrays.  Both are the same chain of stages over the thirteen arguments:
    w   the edge weights, from the edge list alone (degrees by a scatter-add of ones, their inverse square roots where
        positive, minus the product of the two gathered ends);
    h0  = max (x · Wt + bt, 0);
    t0  = the neighbourhood sum of h0's rows (gather the rows at the edges' sources, scale by w, scatter-add at the targets);
    h1  = max ((h0 · W0 + t0 · W1) + b1, 0);
    t1  = the neighbourhood sum of h1's rows;
    the two results (h1 · W0' + t1 · W1') + b', one per head.
  The kernel program computes w, t0, t1 by host operations and h0, h1 and the heads by its four regions; the reference
  computes everything by host operations, t1 twice.  The host stages are THE SAME OPERATIONS on both sides, so once their
  operands are known equal the results are equal term by term: neither gather nor scatter is opened.  The dense stages
  are the layer functions on both sides: a region's output array by the region modules, the reference's
  dot_generals-plus-bias(-and-maximum) by the host-spelling lemmas; the bias row is a reshape on one side and a
  broadcast_in_dim on the other, the same row.  No sum is re-associated and nothing is distributed: the launch memories
  only have to AGREE on the arguments, and finiteness is not used.

  Each buffer is written once, so the reference's final contents (`HandRun.final`) hold every stage; the kernel's stages
  are read at the boundaries between its segments (`Fold`).
-/
import proofs.«101775_j49589692399793_1_alg».proof.Proof.KernelFold
import proofs.«101775_j49589692399793_1_alg».proof.Proof.RefRun
import proofs.«101775_j49589692399793_1_alg».proof.Proof.LibHostLayers
import proofs.«101775_j49589692399793_1_alg».proof.Proof.LibChebLayers

set_option maxRecDepth 16384

noncomputable section

namespace Cert.Bridge

open Idealize.ShloMosaic Idealize.ShloMosaic.TcCoe Idealize.SL.Sem Idealize.ShloMosaic.ValueIdx Idealize.ShloMosaic.StableHlo
open Cert.SageLayers Cert.ChebLayers

/-- Closes a goal by reflexivity if one is left. -/
macro "close_rfl" : tactic => `(tactic| first | done | rfl)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories hold the same thirteen arguments on core `c`. -/
structure Agree : Prop where
  a0 : (launchContents m' c (Proc.devRef .tc Cert.ReferenceIdeal.main_arg0)) = (Cert.KernelIdeal.Gen.W0 m ρ c (Proc.devRef .tc Cert.KernelIdeal.main_arg0))
  a1 : (launchContents m' c (Proc.devRef .tc Cert.ReferenceIdeal.main_arg1)) = (Cert.KernelIdeal.Gen.W0 m ρ c (Proc.devRef .tc Cert.KernelIdeal.main_arg1))
  a2 : (launchContents m' c (Proc.devRef .tc Cert.ReferenceIdeal.main_arg2)) = (Cert.KernelIdeal.Gen.W0 m ρ c (Proc.devRef .tc Cert.KernelIdeal.main_arg2))
  a3 : (launchContents m' c (Proc.devRef .tc Cert.ReferenceIdeal.main_arg3)) = (Cert.KernelIdeal.Gen.W0 m ρ c (Proc.devRef .tc Cert.KernelIdeal.main_arg3))
  a4 : (launchContents m' c (Proc.devRef .tc Cert.ReferenceIdeal.main_arg4)) = (Cert.KernelIdeal.Gen.W0 m ρ c (Proc.devRef .tc Cert.KernelIdeal.main_arg4))
  a5 : (launchContents m' c (Proc.devRef .tc Cert.ReferenceIdeal.main_arg5)) = (Cert.KernelIdeal.Gen.W0 m ρ c (Proc.devRef .tc Cert.KernelIdeal.main_arg5))
  a6 : (launchContents m' c (Proc.devRef .tc Cert.ReferenceIdeal.main_arg6)) = (Cert.KernelIdeal.Gen.W0 m ρ c (Proc.devRef .tc Cert.KernelIdeal.main_arg6))
  a7 : (launchContents m' c (Proc.devRef .tc Cert.ReferenceIdeal.main_arg7)) = (Cert.KernelIdeal.Gen.W0 m ρ c (Proc.devRef .tc Cert.KernelIdeal.main_arg7))
  a8 : (launchContents m' c (Proc.devRef .tc Cert.ReferenceIdeal.main_arg8)) = (Cert.KernelIdeal.Gen.W0 m ρ c (Proc.devRef .tc Cert.KernelIdeal.main_arg8))
  a9 : (launchContents m' c (Proc.devRef .tc Cert.ReferenceIdeal.main_arg9)) = (Cert.KernelIdeal.Gen.W0 m ρ c (Proc.devRef .tc Cert.KernelIdeal.main_arg9))
  a10 : (launchContents m' c (Proc.devRef .tc Cert.ReferenceIdeal.main_arg10)) = (Cert.KernelIdeal.Gen.W0 m ρ c (Proc.devRef .tc Cert.KernelIdeal.main_arg10))
  a11 : (launchContents m' c (Proc.devRef .tc Cert.ReferenceIdeal.main_arg11)) = (Cert.KernelIdeal.Gen.W0 m ρ c (Proc.devRef .tc Cert.KernelIdeal.main_arg11))
  a12 : (launchContents m' c (Proc.devRef .tc Cert.ReferenceIdeal.main_arg12)) = (Cert.KernelIdeal.Gen.W0 m ρ c (Proc.devRef .tc Cert.KernelIdeal.main_arg12))

/-! ## The edge lists and the edge weights: the same operations on the same edge list -/

set_option maxHeartbeats 8000000 in
/-- The edges' sources. -/
theorem sources_eq (h : Agree m ρ m' c) : (Cert.KernelIdeal.Gen.W3 m ρ c (Proc.devRef .tc Cert.KernelIdeal.main_v1)) = (Cert.ReferenceIdeal.HandRun.final (F := Ideal) m' c (Proc.devRef .tc Cert.ReferenceIdeal.main_v1)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v1)
    = StableHlo.after Cert.ReferenceIdeal.HandRun.ops (launchContents m' c) (Proc.devRef .tc Cert.ReferenceIdeal.main_v1)
  after_results_simp
  rw [h.a1]
  close_rfl

set_option maxHeartbeats 8000000 in
/-- The edges' targets. -/
theorem targets_eq (h : Agree m ρ m' c) : (Cert.KernelIdeal.Gen.W3 m ρ c (Proc.devRef .tc Cert.KernelIdeal.main_v3)) = (Cert.ReferenceIdeal.HandRun.final (F := Ideal) m' c (Proc.devRef .tc Cert.ReferenceIdeal.main_v3)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v3)
    = StableHlo.after Cert.ReferenceIdeal.HandRun.ops (launchContents m' c) (Proc.devRef .tc Cert.ReferenceIdeal.main_v3)
  after_results_simp
  rw [h.a1]
  close_rfl

set_option maxHeartbeats 8000000 in
/-- The edge weights. -/
theorem weights_eq (h : Agree m ρ m' c) : (Cert.KernelIdeal.Gen.W3 m ρ c (Proc.devRef .tc Cert.KernelIdeal.main_v33)) = (Cert.ReferenceIdeal.HandRun.final (F := Ideal) m' c (Proc.devRef .tc Cert.ReferenceIdeal.main_v33)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v33)
    = StableHlo.after Cert.ReferenceIdeal.HandRun.ops (launchContents m' c) (Proc.devRef .tc Cert.ReferenceIdeal.main_v33)
  after_results_simp
  rw [h.a1]
  close_rfl

/-! ## The first layer -/

set_option maxHeartbeats 8000000 in
/-- The reference's first layer is max (x · Wt + bt, 0) of its arguments. -/
theorem ref_first_layer : (Cert.ReferenceIdeal.HandRun.final (F := Ideal) m' c (Proc.devRef .tc Cert.ReferenceIdeal.main_v38))
    = projLayer (R := 10000) (K := 10000) (N := 256) (launchContents m' c (Proc.devRef .tc Cert.ReferenceIdeal.main_arg0)) (launchContents m' c (Proc.devRef .tc Cert.ReferenceIdeal.main_arg2))
        (broadcastInDim Cert.ReferenceIdeal.S1x256 ![1] Cert.ReferenceIdeal.Gen.bcast_S256_S1x256_1 (launchContents m' c (Proc.devRef .tc Cert.ReferenceIdeal.main_arg3))) := by
  refine Eq.trans ?_ (host_proj_eq (R := 10000) (K := 10000) (N := 256) (launchContents m' c (Proc.devRef .tc Cert.ReferenceIdeal.main_arg0)) (launchContents m' c (Proc.devRef .tc Cert.ReferenceIdeal.main_arg2)) (launchContents m' c (Proc.devRef .tc Cert.ReferenceIdeal.main_arg3)) ![1] rfl
    Cert.ReferenceIdeal.Gen.bcast_S256_S1x256_1 ![0, 1] rfl rfl Cert.ReferenceIdeal.Gen.bcast_S1x256_S10000x256_0_1 ![] Cert.ReferenceIdeal.Gen.bcast_S_S10000x256)
  unfold Cert.ReferenceIdeal.HandRun.final
  after_results_simp
  close_rfl

/-- The kernel's first region and the reference's first dense stage give the same array. -/
theorem first_layer_eq (h : Agree m ρ m' c) : (Cert.KernelIdeal.Gen.W4 m ρ c (Proc.devRef .tc Cert.KernelIdeal.main_v35)) = (Cert.ReferenceIdeal.HandRun.final (F := Ideal) m' c (Proc.devRef .tc Cert.ReferenceIdeal.main_v38)) := by
  refine (Cert.KernelIdeal.Fold.at4_v35 m ρ c).trans (Eq.symm ((ref_first_layer m' c).trans ?_))
  rw [h.a0, h.a2, h.a3]
  exact congrArg (projLayer (R := 10000) (K := 10000) (N := 256) (Cert.KernelIdeal.Gen.W0 m ρ c (Proc.devRef .tc Cert.KernelIdeal.main_arg0)) (Cert.KernelIdeal.Gen.W0 m ρ c (Proc.devRef .tc Cert.KernelIdeal.main_arg2)))
    (row_of_vector (Cert.KernelIdeal.Gen.W0 m ρ c (Proc.devRef .tc Cert.KernelIdeal.main_arg3)) ![1] rfl Cert.ReferenceIdeal.Gen.bcast_S256_S1x256_1 Cert.KernelIdeal.Gen.shapeCasts_S256_S1x256)

/-! ## The first neighbourhood sum: the same operations on equal operands -/

set_option maxHeartbeats 8000000 in
theorem first_sum_eq (h : Agree m ρ m' c) : (Cert.KernelIdeal.Gen.W5 m ρ c (Proc.devRef .tc Cert.KernelIdeal.main_v48)) = (Cert.ReferenceIdeal.HandRun.final (F := Ideal) m' c (Proc.devRef .tc Cert.ReferenceIdeal.main_v51)) := by
  have e1 := (Cert.KernelIdeal.Fold.at4_v1 m ρ c).trans (sources_eq m ρ m' c h)
  have e3 := (Cert.KernelIdeal.Fold.at4_v3 m ρ c).trans (targets_eq m ρ m' c h)
  have e33 := (Cert.KernelIdeal.Fold.at4_v33 m ρ c).trans (weights_eq m ρ m' c h)
  have e35 := first_layer_eq m ρ m' c h
  show StableHlo.after Cert.KernelIdeal.Gen.hostOps1 (Cert.KernelIdeal.Gen.W4 m ρ c) (Proc.devRef .tc Cert.KernelIdeal.main_v48) = _
  after_results_simp
  rw [e1, e3, e33, e35]
  unfold Cert.ReferenceIdeal.HandRun.final
  after_results_simp
  close_rfl

/-! ## The second layer -/

set_option maxHeartbeats 8000000 in
/-- The reference's second layer is max ((h0 · W0 + t0 · W1) + b1, 0) of its first layer and first sum. -/
theorem ref_second_layer : (Cert.ReferenceIdeal.HandRun.final (F := Ideal) m' c (Proc.devRef .tc Cert.ReferenceIdeal.main_v58))
    = chebReluLayer (R := 10000) (K := 256) (N := 128) (Cert.ReferenceIdeal.HandRun.final (F := Ideal) m' c (Proc.devRef .tc Cert.ReferenceIdeal.main_v38)) (Cert.ReferenceIdeal.HandRun.final (F := Ideal) m' c (Proc.devRef .tc Cert.ReferenceIdeal.main_v51)) (launchContents m' c (Proc.devRef .tc Cert.ReferenceIdeal.main_arg4)) (launchContents m' c (Proc.devRef .tc Cert.ReferenceIdeal.main_arg5))
        (broadcastInDim Cert.ReferenceIdeal.S1x128 ![1] Cert.ReferenceIdeal.Gen.bcast_S128_S1x128_1 (launchContents m' c (Proc.devRef .tc Cert.ReferenceIdeal.main_arg6))) := by
  refine Eq.trans ?_ (host_chebRelu_eq (R := 10000) (K := 256) (N := 128) (Cert.ReferenceIdeal.HandRun.final (F := Ideal) m' c (Proc.devRef .tc Cert.ReferenceIdeal.main_v38)) (Cert.ReferenceIdeal.HandRun.final (F := Ideal) m' c (Proc.devRef .tc Cert.ReferenceIdeal.main_v51)) (launchContents m' c (Proc.devRef .tc Cert.ReferenceIdeal.main_arg4)) (launchContents m' c (Proc.devRef .tc Cert.ReferenceIdeal.main_arg5))
    (launchContents m' c (Proc.devRef .tc Cert.ReferenceIdeal.main_arg6)) ![1] Cert.ReferenceIdeal.Gen.bcast_S128_S1x128_1 ![0, 1] rfl rfl Cert.ReferenceIdeal.Gen.bcast_S1x128_S10000x128_0_1 ![] Cert.ReferenceIdeal.Gen.bcast_S_S10000x128)
  unfold Cert.ReferenceIdeal.HandRun.final
  after_results_simp
  close_rfl

theorem second_layer_eq (h : Agree m ρ m' c) : (Cert.KernelIdeal.Gen.W6 m ρ c (Proc.devRef .tc Cert.KernelIdeal.main_v50)) = (Cert.ReferenceIdeal.HandRun.final (F := Ideal) m' c (Proc.devRef .tc Cert.ReferenceIdeal.main_v58)) := by
  refine (Cert.KernelIdeal.Fold.at6_v50 m ρ c).trans (Eq.symm ((ref_second_layer m' c).trans ?_))
  rw [first_layer_eq m ρ m' c h, first_sum_eq m ρ m' c h, h.a4, h.a5, h.a6]
  exact congrArg (chebReluLayer (R := 10000) (K := 256) (N := 128) (Cert.ReferenceIdeal.HandRun.final (F := Ideal) m' c (Proc.devRef .tc Cert.ReferenceIdeal.main_v38)) (Cert.ReferenceIdeal.HandRun.final (F := Ideal) m' c (Proc.devRef .tc Cert.ReferenceIdeal.main_v51)) (Cert.KernelIdeal.Gen.W0 m ρ c (Proc.devRef .tc Cert.KernelIdeal.main_arg4)) (Cert.KernelIdeal.Gen.W0 m ρ c (Proc.devRef .tc Cert.KernelIdeal.main_arg5)))
    (row_of_vector (Cert.KernelIdeal.Gen.W0 m ρ c (Proc.devRef .tc Cert.KernelIdeal.main_arg6)) ![1] rfl Cert.ReferenceIdeal.Gen.bcast_S128_S1x128_1 Cert.KernelIdeal.Gen.shapeCasts_S128_S1x128)

/-! ## The second neighbourhood sum, against each of the reference's two copies -/

set_option maxHeartbeats 8000000 in
theorem second_sum_eq (h : Agree m ρ m' c) : (Cert.KernelIdeal.Gen.W7 m ρ c (Proc.devRef .tc Cert.KernelIdeal.main_v63)) = (Cert.ReferenceIdeal.HandRun.final (F := Ideal) m' c (Proc.devRef .tc Cert.ReferenceIdeal.main_v71)) := by
  have e1 := (Cert.KernelIdeal.Fold.at6_v1 m ρ c).trans (sources_eq m ρ m' c h)
  have e3 := (Cert.KernelIdeal.Fold.at6_v3 m ρ c).trans (targets_eq m ρ m' c h)
  have e33 := (Cert.KernelIdeal.Fold.at6_v33 m ρ c).trans (weights_eq m ρ m' c h)
  have e50 := second_layer_eq m ρ m' c h
  show StableHlo.after Cert.KernelIdeal.Gen.hostOps2 (Cert.KernelIdeal.Gen.W6 m ρ c) (Proc.devRef .tc Cert.KernelIdeal.main_v63) = _
  after_results_simp
  rw [e1, e3, e33, e50]
  unfold Cert.ReferenceIdeal.HandRun.final
  after_results_simp
  close_rfl

set_option maxHeartbeats 8000000 in
theorem second_sum_eq' (h : Agree m ρ m' c) : (Cert.KernelIdeal.Gen.W7 m ρ c (Proc.devRef .tc Cert.KernelIdeal.main_v63)) = (Cert.ReferenceIdeal.HandRun.final (F := Ideal) m' c (Proc.devRef .tc Cert.ReferenceIdeal.main_v90)) := by
  have e1 := (Cert.KernelIdeal.Fold.at6_v1 m ρ c).trans (sources_eq m ρ m' c h)
  have e3 := (Cert.KernelIdeal.Fold.at6_v3 m ρ c).trans (targets_eq m ρ m' c h)
  have e33 := (Cert.KernelIdeal.Fold.at6_v33 m ρ c).trans (weights_eq m ρ m' c h)
  have e50 := second_layer_eq m ρ m' c h
  show StableHlo.after Cert.KernelIdeal.Gen.hostOps2 (Cert.KernelIdeal.Gen.W6 m ρ c) (Proc.devRef .tc Cert.KernelIdeal.main_v63) = _
  after_results_simp
  rw [e1, e3, e33, e50]
  unfold Cert.ReferenceIdeal.HandRun.final
  after_results_simp
  close_rfl

/-! ## The two heads -/

set_option maxHeartbeats 8000000 in
/-- The reference's head is (h1 · W0 + t1 · W1) + b of its second layer and (its own copy of) the second sum. -/
theorem ref_mean_head : (Cert.ReferenceIdeal.HandRun.final (F := Ideal) m' c (Proc.devRef .tc Cert.ReferenceIdeal.main_v77))
    = chebLayer (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v71)) (launchContents m' c (Proc.devRef .tc Cert.ReferenceIdeal.main_arg7)) (launchContents m' c (Proc.devRef .tc Cert.ReferenceIdeal.main_arg8))
        (broadcastInDim Cert.ReferenceIdeal.S1x64 ![1] Cert.ReferenceIdeal.Gen.bcast_S64_S1x64_1 (launchContents m' c (Proc.devRef .tc Cert.ReferenceIdeal.main_arg9))) := by
  refine Eq.trans ?_ (host_cheb_eq (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v71)) (launchContents m' c (Proc.devRef .tc Cert.ReferenceIdeal.main_arg7)) (launchContents m' c (Proc.devRef .tc Cert.ReferenceIdeal.main_arg8))
    (launchContents m' c (Proc.devRef .tc Cert.ReferenceIdeal.main_arg9)) ![1] Cert.ReferenceIdeal.Gen.bcast_S64_S1x64_1 ![0, 1] rfl rfl Cert.ReferenceIdeal.Gen.bcast_S1x64_S10000x64_0_1)
  unfold Cert.ReferenceIdeal.HandRun.final
  after_results_simp
  close_rfl

/-- THE RESULT: what the kernel program returns here is what the reference returns. -/
theorem mean_eq (h : Agree m ρ m' c) : (Cert.KernelIdeal.Gen.W10 m ρ c (Proc.devRef .tc Cert.KernelIdeal.main_v65)) = (Cert.ReferenceIdeal.HandRun.final (F := Ideal) m' c (Proc.devRef .tc Cert.ReferenceIdeal.main_v77)) := by
  refine (Cert.KernelIdeal.Fold.at10_v65 m ρ c).trans ((Cert.KernelIdeal.Fold.at8_v65 m ρ c).trans (Eq.symm ((ref_mean_head m' c).trans ?_)))
  rw [second_layer_eq m ρ m' c h, second_sum_eq m ρ m' c h, h.a7, h.a8, h.a9]
  exact congrArg (chebLayer (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v71)) (Cert.KernelIdeal.Gen.W0 m ρ c (Proc.devRef .tc Cert.KernelIdeal.main_arg7)) (Cert.KernelIdeal.Gen.W0 m ρ c (Proc.devRef .tc Cert.KernelIdeal.main_arg8)))
    (row_of_vector (Cert.KernelIdeal.Gen.W0 m ρ c (Proc.devRef .tc Cert.KernelIdeal.main_arg9)) ![1] rfl Cert.ReferenceIdeal.Gen.bcast_S64_S1x64_1 Cert.KernelIdeal.Gen.shapeCasts_S64_S1x64)

set_option maxHeartbeats 8000000 in
/-- The reference's head is (h1 · W0 + t1 · W1) + b of its second layer and (its own copy of) the second sum. -/
theorem ref_logstd_head : (Cert.ReferenceIdeal.HandRun.final (F := Ideal) m' c (Proc.devRef .tc Cert.ReferenceIdeal.main_v96))
    = chebLayer (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v90)) (launchContents m' c (Proc.devRef .tc Cert.ReferenceIdeal.main_arg10)) (launchContents m' c (Proc.devRef .tc Cert.ReferenceIdeal.main_arg11))
        (broadcastInDim Cert.ReferenceIdeal.S1x64 ![1] Cert.ReferenceIdeal.Gen.bcast_S64_S1x64_1 (launchContents m' c (Proc.devRef .tc Cert.ReferenceIdeal.main_arg12))) := by
  refine Eq.trans ?_ (host_cheb_eq (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v90)) (launchContents m' c (Proc.devRef .tc Cert.ReferenceIdeal.main_arg10)) (launchContents m' c (Proc.devRef .tc Cert.ReferenceIdeal.main_arg11))
    (launchContents m' c (Proc.devRef .tc Cert.ReferenceIdeal.main_arg12)) ![1] Cert.ReferenceIdeal.Gen.bcast_S64_S1x64_1 ![0, 1] rfl rfl Cert.ReferenceIdeal.Gen.bcast_S1x64_S10000x64_0_1)
  unfold Cert.ReferenceIdeal.HandRun.final
  after_results_simp
  close_rfl

/-- THE RESULT: what the kernel program returns here is what the reference returns. -/
theorem logstd_eq (h : Agree m ρ m' c) : (Cert.KernelIdeal.Gen.W10 m ρ c (Proc.devRef .tc Cert.KernelIdeal.main_v67)) = (Cert.ReferenceIdeal.HandRun.final (F := Ideal) m' c (Proc.devRef .tc Cert.ReferenceIdeal.main_v96)) := by
  refine ((Cert.KernelIdeal.Fold.at10_v67 m ρ c).trans (Eq.symm ((ref_logstd_head m' c).trans ?_)))
  rw [second_layer_eq m ρ m' c h, second_sum_eq' m ρ m' c h, h.a10, h.a11, h.a12]
  exact congrArg (chebLayer (R := 10000) (K := 128) (N := 64) (Cert.ReferenceIdeal.HandRun.final (F := Ideal) m' c (Proc.devRef .tc Cert.ReferenceIdeal.main_v58)) (Cert.ReferenceIdeal.HandRun.final (F := Ideal) m' c (Proc.devRef .tc Cert.ReferenceIdeal.main_v90)) (Cert.KernelIdeal.Gen.W0 m ρ c (Proc.devRef .tc Cert.KernelIdeal.main_arg10)) (Cert.KernelIdeal.Gen.W0 m ρ c (Proc.devRef .tc Cert.KernelIdeal.main_arg11)))
    (row_of_vector (Cert.KernelIdeal.Gen.W0 m ρ c (Proc.devRef .tc Cert.KernelIdeal.main_arg12)) ![1] rfl Cert.ReferenceIdeal.Gen.bcast_S64_S1x64_1 Cert.KernelIdeal.Gen.shapeCasts_S64_S1x64)

end Cert.Bridge

end
-- ==== Proof.lean ====
/-
  The claim.  Both programs compute a two-layer graph convolution with two heads over a [10000, 10000] feature matrix
  and 640000 edges: the first layer max (x · Wt + bt, 0); then twice a layer (h · W0 + t · W1) + b over the features h
  and the weighted neighbourhood sum t of their rows (rectified for the hidden layer, unrectified for the two heads,
  which share one neighbourhood sum).  The kernel computes the four dense layers by four pipelined regions over row
  tiles, with bf16 operands into an f32 accumulator; the reference by dot_generals on the host.  On the extended reals
  both are the same sums in the same grouping, so the two results agree entry by entry from any two launch memories
  that agree on the arguments (`algebraic`); finiteness of the inputs is not used.

  * The word-level kernel's frame and the idealized kernel's frame are the generated frame certificates.
  * The reference's frame is its run (a straight line of host operations) read at the arguments (`RefArgs`).
  * The idealization rewrote nothing: `preserves` has no conjunct.
  * `algebraic`: the kernel's run names its results at the last boundary of its segments (`LastBoundary`), the
    reference's run names every buffer at the fold of its operations (`RefRun`), and the two are equal (`Bridge`).
-/
import proofs.«101775_j49589692399793_1_alg».proof.Defs
import proofs.«101775_j49589692399793_1_alg».proof.Proof.Gen.Kernel
import proofs.«101775_j49589692399793_1_alg».proof.Proof.Gen.Kernel.Skeleton
import proofs.«101775_j49589692399793_1_alg».proof.Proof.Gen.Kernel.Launch
import proofs.«101775_j49589692399793_1_alg».proof.Proof.Gen.Kernel.Points
import proofs.«101775_j49589692399793_1_alg».proof.Proof.Gen.Kernel.Frame
import proofs.«101775_j49589692399793_1_alg».proof.Proof.Gen.KernelIdeal
import proofs.«101775_j49589692399793_1_alg».proof.Proof.Gen.KernelIdeal.Skeleton
import proofs.«101775_j49589692399793_1_alg».proof.Proof.Gen.KernelIdeal.Launch
import proofs.«101775_j49589692399793_1_alg».proof.Proof.Gen.KernelIdeal.Points
import proofs.«101775_j49589692399793_1_alg».proof.Proof.Gen.KernelIdeal.Frame
import proofs.«101775_j49589692399793_1_alg».proof.Proof.Gen.ReferenceIdeal
import proofs.«101775_j49589692399793_1_alg».proof.Proof.Gen.Pre_finite_inputs
import proofs.«101775_j49589692399793_1_alg».proof.Proof.LastBoundary
import proofs.«101775_j49589692399793_1_alg».proof.Proof.RefArgs
import proofs.«101775_j49589692399793_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's frame: the generated certificate. -/
theorem frame_kernel : Cert.frame_Kernel := fun m ρ _ => Cert.Kernel.Gen.frame m ρ

/-- The idealized kernel's frame: the generated certificate. -/
theorem frame_kernel_ideal : Cert.frame_KernelIdeal := fun m ρ _ => Cert.KernelIdeal.Gen.frame m ρ

/-- The reference's frame: its run ends with every buffer at the fold of its operations, which at an argument is the
    launch contents. -/
theorem frame_reference : Cert.frame_ReferenceIdeal := fun m ρ _ =>
  (θ_run Cert.ReferenceIdeal.defs _ _).mono (fun _ hr c =>
    ⟨(hr c _).trans (Cert.ReferenceIdeal.HandRun.final_arg0 m c),
     (hr c _).trans (Cert.ReferenceIdeal.HandRun.final_arg1 m c),
     (hr c _).trans (Cert.ReferenceIdeal.HandRun.final_arg2 m c),
     (hr c _).trans (Cert.ReferenceIdeal.HandRun.final_arg3 m c),
     (hr c _).trans (Cert.ReferenceIdeal.HandRun.final_arg4 m c),
     (hr c _).trans (Cert.ReferenceIdeal.HandRun.final_arg5 m c),
     (hr c _).trans (Cert.ReferenceIdeal.HandRun.final_arg6 m c),
     (hr c _).trans (Cert.ReferenceIdeal.HandRun.final_arg7 m c),
     (hr c _).trans (Cert.ReferenceIdeal.HandRun.final_arg8 m c),
     (hr c _).trans (Cert.ReferenceIdeal.HandRun.final_arg9 m c),
     (hr c _).trans (Cert.ReferenceIdeal.HandRun.final_arg10 m c),
     (hr c _).trans (Cert.ReferenceIdeal.HandRun.final_arg11 m c),
     (hr c _).trans (Cert.ReferenceIdeal.HandRun.final_arg12 m c)⟩)
    (Cert.ReferenceIdeal.HandRun.run (F := Ideal) m ρ)

/-- The idealization pass rewrote nothing. -/
theorem preserves : Cert.preserves_Kernel_KernelIdeal := trivial

/-- From launch memories that agree on the thirteen arguments, both programs end with the same two result arrays: the
    kernel's at the last boundary of its segments, the reference's at the fold of its operations, equal by the bridge. -/
theorem algebraic : Cert.algebraic_KernelIdeal_ReferenceIdeal := by
  intro m ρ m' ρ' _ hagree
  refine ⟨fun c => Cert.KernelIdeal.Gen.W10 m ρ c (Proc.devRef .tc Cert.KernelIdeal.main_v65),
    fun c => Cert.KernelIdeal.Gen.W10 m ρ c (Proc.devRef .tc Cert.KernelIdeal.main_v67),
    Cert.KernelIdeal.Results.run_results m ρ, ?_⟩
  refine (θ_run Cert.ReferenceIdeal.defs _ _).mono (fun _ hr c => ?_) (Cert.ReferenceIdeal.HandRun.run (F := Ideal) m' ρ')
  have hA : Cert.Bridge.Agree m ρ m' c := by
    obtain ⟨h0, h1, h2, h3, h4, h5, h6, h7, h8, h9, h10, h11, h12⟩ := hagree c
    exact ⟨h0, h1, h2, h3, h4, h5, h6, h7, h8, h9, h10, h11, h12⟩
  exact ⟨(hr c _).trans (Cert.Bridge.mean_eq m ρ m' c hA).symm,
    (hr c _).trans (Cert.Bridge.logstd_eq m ρ m' c hA).symm,
    (hr c _).trans (Cert.ReferenceIdeal.HandRun.final_arg0 m' c),
    (hr c _).trans (Cert.ReferenceIdeal.HandRun.final_arg1 m' c),
    (hr c _).trans (Cert.ReferenceIdeal.HandRun.final_arg2 m' c),
    (hr c _).trans (Cert.ReferenceIdeal.HandRun.final_arg3 m' c),
    (hr c _).trans (Cert.ReferenceIdeal.HandRun.final_arg4 m' c),
    (hr c _).trans (Cert.ReferenceIdeal.HandRun.final_arg5 m' c),
    (hr c _).trans (Cert.ReferenceIdeal.HandRun.final_arg6 m' c),
    (hr c _).trans (Cert.ReferenceIdeal.HandRun.final_arg7 m' c),
    (hr c _).trans (Cert.ReferenceIdeal.HandRun.final_arg8 m' c),
    (hr c _).trans (Cert.ReferenceIdeal.HandRun.final_arg9 m' c),
    (hr c _).trans (Cert.ReferenceIdeal.HandRun.final_arg10 m' c),
    (hr c _).trans (Cert.ReferenceIdeal.HandRun.final_arg11 m' c),
    (hr c _).trans (Cert.ReferenceIdeal.HandRun.final_arg12 m' c)⟩

theorem claim : Cert.Claim := ⟨Cert.Kernel.Gen.facts, Cert.KernelIdeal.Gen.facts, Cert.ReferenceIdeal.Gen.facts,
  Cert.Pre_finite_inputs.Gen.facts, frame_kernel, frame_kernel_ideal, frame_reference, preserves, algebraic⟩

end Cert.Proof

end
